-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x2048x768 : Shape := ⟨4, ![1, 8, 2048, 768]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S_ : Shape := ⟨0, ![]⟩

class Facts : Prop where
  bcast_S_S1x8x2048x768 : S_.BroadcastsInDim S1x8x2048x768 (![] : Fin 0 → Fin S1x8x2048x768.rank)
  reducesTo_S1x8x2048x768_S_d0_1_2_3 : S1x8x2048x768.ReducesTo [0, 1, 2, 3] S_
  h_S_ : 0 < S_.numel
  bcast_S_S8x768x3072 : S_.BroadcastsInDim S8x768x3072 (![] : Fin 0 → Fin S8x768x3072.rank)
  reducesTo_S8x768x3072_S_d0_1_2 : S8x768x3072.ReducesTo [0, 1, 2] S_
  bcast_S_S8x3072 : S_.BroadcastsInDim S8x3072 (![] : Fin 0 → Fin S8x3072.rank)
  reducesTo_S8x3072_S_d0_1 : S8x3072.ReducesTo [0, 1] S_
  bcast_S_S8x3072x768 : S_.BroadcastsInDim S8x3072x768 (![] : Fin 0 → Fin S8x3072x768.rank)
  reducesTo_S8x3072x768_S_d0_1_2 : S8x3072x768.ReducesTo [0, 1, 2] S_
  bcast_S_S8x768 : S_.BroadcastsInDim S8x768 (![] : Fin 0 → Fin S8x768.rank)
  reducesTo_S8x768_S_d0_1 : S8x768.ReducesTo [0, 1] S_

variable [Facts]

def fn_part1 {F : FTy → Type} [FloatOps F] (main_arg4 : FVec F S8x768 .f32) (main_v13 : IVec S_ 1) (main_v16 : IVec S8x3072x768 1) : IVec S_ 1 :=
  let main_c_5 : IVec S_ 1 := constantI S_ 1 1#1
  let main_v17 : IVec S_ 1 := (fun x v => Host.reduce IntOp.andi x v reducesTo_S8x3072x768_S_d0_1_2 h_S_) main_v16 main_c_5
  let main_v18 : IVec S_ 1 := andi main_v13 main_v17
  let main_v19 : FVec F S8x768 .f32 := Host.absf main_arg4
  let main_cst_6 : FVec F S_ .f32 := constant S_ .f32 0x7F800000#32
  let main_v20 : FVec F S8x768 .f32 := broadcastInDim S8x768 ![] bcast_S_S8x768 main_cst_6
  let main_v21 : IVec S8x768 1 := cmpf .olt main_v19 main_v20
  let main_c_7 : IVec S_ 1 := constantI S_ 1 1#1
  let main_v22 : IVec S_ 1 := (fun x v => Host.reduce IntOp.andi x v reducesTo_S8x768_S_d0_1 h_S_) main_v21 main_c_7
  let main_v23 : IVec S_ 1 := andi main_v18 main_v22
  main_v23

def fn {F : FTy → Type} [FloatOps F] (main_arg0 : FVec F S1x8x2048x768 .f32) (main_arg1 : FVec F S8x768x3072 .f32) (main_arg2 : FVec F S8x3072 .f32) (main_arg3 : FVec F S8x3072x768 .f32) (main_arg4 : FVec F S8x768 .f32) : IVec S_ 1 :=
  let main_v0 : FVec F S1x8x2048x768 .f32 := Host.absf main_arg0
  let main_cst : FVec F S_ .f32 := constant S_ .f32 0x7F800000#32
  let main_v1 : FVec F S1x8x2048x768 .f32 := broadcastInDim S1x8x2048x768 ![] bcast_S_S1x8x2048x768 main_cst
  let main_v2 : IVec S1x8x2048x768 1 := cmpf .olt main_v0 main_v1
  let main_c : IVec S_ 1 := constantI S_ 1 1#1
  let main_v3 : IVec S_ 1 := (fun x v => Host.reduce IntOp.andi x v reducesTo_S1x8x2048x768_S_d0_1_2_3 h_S_) main_v2 main_c
  let main_v4 : FVec F S8x768x3072 .f32 := Host.absf main_arg1
  let main_cst_0 : FVec F S_ .f32 := constant S_ .f32 0x7F800000#32
  let main_v5 : FVec F S8x768x3072 .f32 := broadcastInDim S8x768x3072 ![] bcast_S_S8x768x3072 main_cst_0
  let main_v6 : IVec S8x768x3072 1 := cmpf .olt main_v4 main_v5
  let main_c_1 : IVec S_ 1 := constantI S_ 1 1#1
  let main_v7 : IVec S_ 1 := (fun x v => Host.reduce IntOp.andi x v reducesTo_S8x768x3072_S_d0_1_2 h_S_) main_v6 main_c_1
  let main_v8 : IVec S_ 1 := andi main_v3 main_v7
  let main_v9 : FVec F S8x3072 .f32 := Host.absf main_arg2
  let main_cst_2 : FVec F S_ .f32 := constant S_ .f32 0x7F800000#32
  let main_v10 : FVec F S8x3072 .f32 := broadcastInDim S8x3072 ![] bcast_S_S8x3072 main_cst_2
  let main_v11 : IVec S8x3072 1 := cmpf .olt main_v9 main_v10
  let main_c_3 : IVec S_ 1 := constantI S_ 1 1#1
  let main_v12 : IVec S_ 1 := (fun x v => Host.reduce IntOp.andi x v reducesTo_S8x3072_S_d0_1 h_S_) main_v11 main_c_3
  let main_v13 : IVec S_ 1 := andi main_v8 main_v12
  let main_v14 : FVec F S8x3072x768 .f32 := Host.absf main_arg3
  let main_cst_4 : FVec F S_ .f32 := constant S_ .f32 0x7F800000#32
  let main_v15 : FVec F S8x3072x768 .f32 := broadcastInDim S8x3072x768 ![] bcast_S_S8x3072x768 main_cst_4
  let main_v16 : IVec S8x3072x768 1 := cmpf .olt main_v14 main_v15
  fn_part1 (F := F) main_arg4 main_v13 main_v16
-- ==== Kernel.lean ====
abbrev S1x8x2048x768 : Shape := ⟨4, ![1, 8, 2048, 768]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S8x2048x768 : Shape := ⟨3, ![8, 2048, 768]⟩
abbrev S8x1x3072 : Shape := ⟨3, ![8, 1, 3072]⟩
abbrev S8x1x768 : Shape := ⟨3, ![8, 1, 768]⟩
abbrev S1x1024x768 : Shape := ⟨3, ![1, 1024, 768]⟩
abbrev S1x768x3072 : Shape := ⟨3, ![1, 768, 3072]⟩
abbrev S1x1x3072 : Shape := ⟨3, ![1, 1, 3072]⟩
abbrev S1x3072x768 : Shape := ⟨3, ![1, 3072, 768]⟩
abbrev S1x1x768 : Shape := ⟨3, ![1, 1, 768]⟩
abbrev S1024x768 : Shape := ⟨2, ![1024, 768]⟩
abbrev S1x768 : Shape := ⟨2, ![1, 768]⟩
abbrev S1x768x1536 : Shape := ⟨3, ![1, 768, 1536]⟩
abbrev S768x1536 : Shape := ⟨2, ![768, 1536]⟩
abbrev S1024x1536 : Shape := ⟨2, ![1024, 1536]⟩
abbrev S1x1x1536 : Shape := ⟨3, ![1, 1, 1536]⟩
abbrev S1x1536 : Shape := ⟨2, ![1, 1536]⟩
abbrev S1x1536x768 : Shape := ⟨3, ![1, 1536, 768]⟩
abbrev S1536x768 : Shape := ⟨2, ![1536, 768]⟩

abbrev nBuf : Space → Nat
  | .hbm => 10
  | .vmem => 12
  | .smem => 0
  | _ => 0

abbrev bufTy : (tb : Table) → Fin (tcTables nBuf tb) → BufTy
  | .hbm, ⟨0, _⟩ => ⟨S1x8x2048x768, .f32⟩
  | .hbm, ⟨1, _⟩ => ⟨S8x768x3072, .f32⟩
  | .hbm, ⟨2, _⟩ => ⟨S8x3072, .f32⟩
  | .hbm, ⟨3, _⟩ => ⟨S8x3072x768, .f32⟩
  | .hbm, ⟨4, _⟩ => ⟨S8x768, .f32⟩
  | .hbm, ⟨5, _⟩ => ⟨S8x2048x768, .f32⟩
  | .hbm, ⟨6, _⟩ => ⟨S8x1x3072, .f32⟩
  | .hbm, ⟨7, _⟩ => ⟨S8x1x768, .f32⟩
  | .hbm, ⟨8, _⟩ => ⟨S8x2048x768, .f32⟩
  | .hbm, ⟨9, _⟩ => ⟨S1x8x2048x768, .f32⟩
  | .local _ .vmem, ⟨0, _⟩ => ⟨S1x1024x768, .f32⟩
  | .local _ .vmem, ⟨1, _⟩ => ⟨S1x1024x768, .f32⟩
  | .local _ .vmem, ⟨2, _⟩ => ⟨S1x768x3072, .f32⟩
  | .local _ .vmem, ⟨3, _⟩ => ⟨S1x768x3072, .f32⟩
  | .local _ .vmem, ⟨4, _⟩ => ⟨S1x1x3072, .f32⟩
  | .local _ .vmem, ⟨5, _⟩ => ⟨S1x1x3072, .f32⟩
  | .local _ .vmem, ⟨6, _⟩ => ⟨S1x3072x768, .f32⟩
  | .local _ .vmem, ⟨7, _⟩ => ⟨S1x3072x768, .f32⟩
  | .local _ .vmem, ⟨8, _⟩ => ⟨S1x1x768, .f32⟩
  | .local _ .vmem, ⟨9, _⟩ => ⟨S1x1x768, .f32⟩
  | .local _ .vmem, ⟨10, _⟩ => ⟨S1x1024x768, .f32⟩
  | .local _ .vmem, ⟨11, _⟩ => ⟨S1x1024x768, .f32⟩
  | _, _ => ⟨S1x8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3072x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S1x8x2048x768_S8x2048x768 : S1x8x2048x768.ShapeCasts S8x2048x768
  shapeCasts_S8x3072_S8x1x3072 : S8x3072.ShapeCasts S8x1x3072
  shapeCasts_S8x768_S8x1x768 : S8x768.ShapeCasts S8x1x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S1x1x768_S1x1x768_0_0_0 : ∀ a, (![0, 0, 0] : Fin 3 → Nat) a + S1x1x768.size a ≤ S1x1x768.size a
  h_S1x1x768 : 0 < S1x1x768.numel
  shapeCasts_S1x1x768_S1x768 : S1x1x768.ShapeCasts S1x768
  shapeCasts_S1x768_S1x768 : S1x768.ShapeCasts S1x768
  broadcasts_S1x768_S1024x768 : S1x768.Broadcasts S1024x768
  shapeCasts_S1024x768_S1x1024x768 : S1024x768.ShapeCasts S1x1024x768
  inb_S1x768x3072_S1x768x1536_0_0_0 : ∀ a, (![0, 0, 0] : Fin 3 → Nat) a + S1x768x1536.size a ≤ S1x768x3072.size a
  h_S1x768x1536 : 0 < S1x768x1536.numel
  shapeCasts_S1x768x1536_S768x1536 : S1x768x1536.ShapeCasts S768x1536
  inb_S1x1x3072_S1x1x1536_0_0_0 : ∀ a, (![0, 0, 0] : Fin 3 → Nat) a + S1x1x1536.size a ≤ S1x1x3072.size a
  h_S1x1x1536 : 0 < S1x1x1536.numel
  shapeCasts_S1x1x1536_S1x1536 : S1x1x1536.ShapeCasts S1x1536
  broadcasts_S1x1536_S1024x1536 : S1x1536.Broadcasts S1024x1536
  inb_S1x768x3072_S1x768x1536_0_0_1536 : ∀ a, (![0, 0, 1536] : Fin 3 → Nat) a + S1x768x1536.size a ≤ S1x768x3072.size a
  inb_S1x3072x768_S1x1536x768_0_0_0 : ∀ a, (![0, 0, 0] : Fin 3 → Nat) a + S1x1536x768.size a ≤ S1x3072x768.size a
  h_S1x1536x768 : 0 < S1x1536x768.numel
  shapeCasts_S1x1536x768_S1536x768 : S1x1536x768.ShapeCasts S1536x768
  inb_S1x1x3072_S1x1x1536_0_0_1536 : ∀ a, (![0, 0, 1536] : Fin 3 → Nat) a + S1x1x1536.size a ≤ S1x1x3072.size a
  inb_S1x3072x768_S1x1536x768_0_1536_0 : ∀ a, (![0, 1536, 0] : Fin 3 → Nat) a + S1x1536x768.size a ≤ S1x3072x768.size a
  shapeCasts_S8x2048x768_S1x8x2048x768 : S8x2048x768.ShapeCasts S1x8x2048x768
  dot_S1024x768_S768x1536_S1024x1536_1_0_0_1_n_n_wf : DotDims.WF S1024x768 S768x1536 S1024x1536 [1] [0] [0] [1] [] []
  dot_S1024x1536_S1536x768_S1024x768_1_0_0_1_n_n_wf : DotDims.WF S1024x1536 S1536x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x2048x768.size a
  hwx0_0 : ∀ i : grid0.Coords, EltTy.bits .f32 = 32 ∨ (Rect.block (s := S8x2048x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x3072.size a ≤ S8x768x3072.size a
  hwx0_1 : ∀ i : grid0.Coords, EltTy.bits .f32 = 32 ∨ (Rect.block (s := S8x768x3072) S1x768x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x3072.size a ≤ S8x1x3072.size a
  hwx0_2 : ∀ i : grid0.Coords, EltTy.bits .f32 = 32 ∨ (Rect.block (s := S8x1x3072) S1x1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3072x768.size a ≤ S8x3072x768.size a
  hwx0_3 : ∀ i : grid0.Coords, EltTy.bits .f32 = 32 ∨ (Rect.block (s := S8x3072x768) S1x3072x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x768.size a ≤ S8x1x768.size a
  hwx0_4 : ∀ i : grid0.Coords, EltTy.bits .f32 = 32 ∨ (Rect.block (s := S8x1x768) S1x1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x768.size a ≤ S8x2048x768.size a
  hwx0_5 : ∀ i : grid0.Coords, EltTy.bits .f32 = 32 ∨ (Rect.block (s := S8x2048x768) S1x1024x768.size (cc0_transform_5 i) (hinb0_5 i)).WholeWords (EltTy.packing .f32)

variable [Facts₀]

def dot_S1024x768_S768x1536_S1024x1536_1_0_0_1_n_n : DotDims S1024x768 S768x1536 S1024x1536 where
  lhsContracting := [1]
  rhsContracting := [0]
  lhsNonContracting := [0]
  rhsNonContracting := [1]
  lhsBatch := []
  rhsBatch := []
  wf := dot_S1024x768_S768x1536_S1024x1536_1_0_0_1_n_n_wf
def dot_S1024x1536_S1536x768_S1024x768_1_0_0_1_n_n : DotDims S1024x1536 S1536x768 S1024x768 where
  lhsContracting := [1]
  rhsContracting := [0]
  lhsNonContracting := [0]
  rhsNonContracting := [1]
  lhsBatch := []
  rhsBatch := []
  wf := dot_S1024x1536_S1536x768_S1024x768_1_0_0_1_n_n_wf

abbrev win0_0 : Pipeline.Window sig grid0 :=
  Pipeline.Window.ofSpec (Memref.whole main_v0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x768x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x3072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x3072x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x8x2048x768 : Shape := ⟨4, ![1, 8, 2048, 768]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S8x1x2048x768 : Shape := ⟨4, ![8, 1, 2048, 768]⟩
abbrev S1x1x2048x768 : Shape := ⟨4, ![1, 1, 2048, 768]⟩
abbrev S1x2048x768 : Shape := ⟨3, ![1, 2048, 768]⟩
abbrev S1x768x3072 : Shape := ⟨3, ![1, 768, 3072]⟩
abbrev S768x3072 : Shape := ⟨2, ![768, 3072]⟩
abbrev S1x2048x3072 : Shape := ⟨3, ![1, 2048, 3072]⟩
abbrev S1x3072 : Shape := ⟨2, ![1, 3072]⟩
abbrev S3072 : Shape := ⟨1, ![3072]⟩
abbrev S1x1x3072 : Shape := ⟨3, ![1, 1, 3072]⟩
abbrev S_ : Shape := ⟨0, ![]⟩
abbrev S1x3072x768 : Shape := ⟨3, ![1, 3072, 768]⟩
abbrev S3072x768 : Shape := ⟨2, ![3072, 768]⟩
abbrev S1x768 : Shape := ⟨2, ![1, 768]⟩
abbrev S768 : Shape := ⟨1, ![768]⟩
abbrev S1x1x768 : Shape := ⟨3, ![1, 1, 768]⟩

abbrev nBuf : Space → Nat
  | .hbm => 296
  | .vmem => 0
  | .smem => 0
  | _ => 0

abbrev hbmTy0_0 (i : Nat) : BufTy := match i % 128 with
  | 0 => ⟨S1x8x2048x768, .f32⟩
  | 1 => ⟨S8x768x3072, .f32⟩
  | 2 => ⟨S8x3072, .f32⟩
  | 3 => ⟨S8x3072x768, .f32⟩
  | 4 => ⟨S8x768, .f32⟩
  | 5 => ⟨S8x1x2048x768, .f32⟩
  | 6 => ⟨S1x1x2048x768, .f32⟩
  | 7 => ⟨S1x2048x768, .f32⟩
  | 8 => ⟨S1x768x3072, .f32⟩
  | 9 => ⟨S768x3072, .f32⟩
  | 10 => ⟨S1x2048x3072, .f32⟩
  | 11 => ⟨S1x3072, .f32⟩
  | 12 => ⟨S3072, .f32⟩
  | 13 => ⟨S1x1x3072, .f32⟩
  | 14 => ⟨S1x2048x3072, .f32⟩
  | 15 => ⟨S1x2048x3072, .f32⟩
  | 16 => ⟨S1x2048x3072, .f32⟩
  | 17 => ⟨S1x2048x3072, .f32⟩
  | 18 => ⟨S_, .f32⟩
  | 19 => ⟨S1x2048x3072, .f32⟩
  | 20 => ⟨S1x2048x3072, .f32⟩
  | 21 => ⟨S1x2048x3072, .f32⟩
  | 22 => ⟨S_, .f32⟩
  | 23 => ⟨S1x2048x3072, .f32⟩
  | 24 => ⟨S1x2048x3072, .f32⟩
  | 25 => ⟨S1x2048x3072, .f32⟩
  | 26 => ⟨S_, .f32⟩
  | 27 => ⟨S1x2048x3072, .f32⟩
  | 28 => ⟨S1x2048x3072, .f32⟩
  | 29 => ⟨S_, .f32⟩
  | 30 => ⟨S1x2048x3072, .f32⟩
  | 31 => ⟨S1x2048x3072, .f32⟩
  | 32 => ⟨S1x2048x3072, .f32⟩
  | 33 => ⟨S1x3072x768, .f32⟩
  | 34 => ⟨S3072x768, .f32⟩
  | 35 => ⟨S1x2048x768, .f32⟩
  | 36 => ⟨S1x768, .f32⟩
  | 37 => ⟨S768, .f32⟩
  | 38 => ⟨S1x1x768, .f32⟩
  | 39 => ⟨S1x2048x768, .f32⟩
  | 40 => ⟨S1x2048x768, .f32⟩
  | 41 => ⟨S1x1x2048x768, .f32⟩
  | 42 => ⟨S1x2048x768, .f32⟩
  | 43 => ⟨S1x768x3072, .f32⟩
  | 44 => ⟨S768x3072, .f32⟩
  | 45 => ⟨S1x2048x3072, .f32⟩
  | 46 => ⟨S1x3072, .f32⟩
  | 47 => ⟨S3072, .f32⟩
  | 48 => ⟨S1x1x3072, .f32⟩
  | 49 => ⟨S1x2048x3072, .f32⟩
  | 50 => ⟨S1x2048x3072, .f32⟩
  | 51 => ⟨S1x2048x3072, .f32⟩
  | 52 => ⟨S1x2048x3072, .f32⟩
  | 53 => ⟨S_, .f32⟩
  | 54 => ⟨S1x2048x3072, .f32⟩
  | 55 => ⟨S1x2048x3072, .f32⟩
  | 56 => ⟨S1x2048x3072, .f32⟩
  | 57 => ⟨S_, .f32⟩
  | 58 => ⟨S1x2048x3072, .f32⟩
  | 59 => ⟨S1x2048x3072, .f32⟩
  | 60 => ⟨S1x2048x3072, .f32⟩
  | 61 => ⟨S_, .f32⟩
  | 62 => ⟨S1x2048x3072, .f32⟩
  | 63 => ⟨S1x2048x3072, .f32⟩
  | 64 => ⟨S_, .f32⟩
  | 65 => ⟨S1x2048x3072, .f32⟩
  | 66 => ⟨S1x2048x3072, .f32⟩
  | 67 => ⟨S1x2048x3072, .f32⟩
  | 68 => ⟨S1x3072x768, .f32⟩
  | 69 => ⟨S3072x768, .f32⟩
  | 70 => ⟨S1x2048x768, .f32⟩
  | 71 => ⟨S1x768, .f32⟩
  | 72 => ⟨S768, .f32⟩
  | 73 => ⟨S1x1x768, .f32⟩
  | 74 => ⟨S1x2048x768, .f32⟩
  | 75 => ⟨S1x2048x768, .f32⟩
  | 76 => ⟨S1x1x2048x768, .f32⟩
  | 77 => ⟨S1x2048x768, .f32⟩
  | 78 => ⟨S1x768x3072, .f32⟩
  | 79 => ⟨S768x3072, .f32⟩
  | 80 => ⟨S1x2048x3072, .f32⟩
  | 81 => ⟨S1x3072, .f32⟩
  | 82 => ⟨S3072, .f32⟩
  | 83 => ⟨S1x1x3072, .f32⟩
  | 84 => ⟨S1x2048x3072, .f32⟩
  | 85 => ⟨S1x2048x3072, .f32⟩
  | 86 => ⟨S1x2048x3072, .f32⟩
  | 87 => ⟨S1x2048x3072, .f32⟩
  | 88 => ⟨S_, .f32⟩
  | 89 => ⟨S1x2048x3072, .f32⟩
  | 90 => ⟨S1x2048x3072, .f32⟩
  | 91 => ⟨S1x2048x3072, .f32⟩
  | 92 => ⟨S_, .f32⟩
  | 93 => ⟨S1x2048x3072, .f32⟩
  | 94 => ⟨S1x2048x3072, .f32⟩
  | 95 => ⟨S1x2048x3072, .f32⟩
  | 96 => ⟨S_, .f32⟩
  | 97 => ⟨S1x2048x3072, .f32⟩
  | 98 => ⟨S1x2048x3072, .f32⟩
  | 99 => ⟨S_, .f32⟩
  | 100 => ⟨S1x2048x3072, .f32⟩
  | 101 => ⟨S1x2048x3072, .f32⟩
  | 102 => ⟨S1x2048x3072, .f32⟩
  | 103 => ⟨S1x3072x768, .f32⟩
  | 104 => ⟨S3072x768, .f32⟩
  | 105 => ⟨S1x2048x768, .f32⟩
  | 106 => ⟨S1x768, .f32⟩
  | 107 => ⟨S768, .f32⟩
  | 108 => ⟨S1x1x768, .f32⟩
  | 109 => ⟨S1x2048x768, .f32⟩
  | 110 => ⟨S1x2048x768, .f32⟩
  | 111 => ⟨S1x1x2048x768, .f32⟩
  | 112 => ⟨S1x2048x768, .f32⟩
  | 113 => ⟨S1x768x3072, .f32⟩
  | 114 => ⟨S768x3072, .f32⟩
  | 115 => ⟨S1x2048x3072, .f32⟩
  | 116 => ⟨S1x3072, .f32⟩
  | 117 => ⟨S3072, .f32⟩
  | 118 => ⟨S1x1x3072, .f32⟩
  | 119 => ⟨S1x2048x3072, .f32⟩
  | 120 => ⟨S1x2048x3072, .f32⟩
  | 121 => ⟨S1x2048x3072, .f32⟩
  | 122 => ⟨S1x2048x3072, .f32⟩
  | 123 => ⟨S_, .f32⟩
  | 124 => ⟨S1x2048x3072, .f32⟩
  | 125 => ⟨S1x2048x3072, .f32⟩
  | 126 => ⟨S1x2048x3072, .f32⟩
  | 127 => ⟨S_, .f32⟩
  | _ => ⟨S1x8x2048x768, .f32⟩

abbrev hbmTy0_1 (i : Nat) : BufTy := match i % 128 with
  | 0 => ⟨S1x2048x3072, .f32⟩
  | 1 => ⟨S1x2048x3072, .f32⟩
  | 2 => ⟨S1x2048x3072, .f32⟩
  | 3 => ⟨S_, .f32⟩
  | 4 => ⟨S1x2048x3072, .f32⟩
  | 5 => ⟨S1x2048x3072, .f32⟩
  | 6 => ⟨S_, .f32⟩
  | 7 => ⟨S1x2048x3072, .f32⟩
  | 8 => ⟨S1x2048x3072, .f32⟩
  | 9 => ⟨S1x2048x3072, .f32⟩
  | 10 => ⟨S1x3072x768, .f32⟩
  | 11 => ⟨S3072x768, .f32⟩
  | 12 => ⟨S1x2048x768, .f32⟩
  | 13 => ⟨S1x768, .f32⟩
  | 14 => ⟨S768, .f32⟩
  | 15 => ⟨S1x1x768, .f32⟩
  | 16 => ⟨S1x2048x768, .f32⟩
  | 17 => ⟨S1x2048x768, .f32⟩
  | 18 => ⟨S1x1x2048x768, .f32⟩
  | 19 => ⟨S1x2048x768, .f32⟩
  | 20 => ⟨S1x768x3072, .f32⟩
  | 21 => ⟨S768x3072, .f32⟩
  | 22 => ⟨S1x2048x3072, .f32⟩
  | 23 => ⟨S1x3072, .f32⟩
  | 24 => ⟨S3072, .f32⟩
  | 25 => ⟨S1x1x3072, .f32⟩
  | 26 => ⟨S1x2048x3072, .f32⟩
  | 27 => ⟨S1x2048x3072, .f32⟩
  | 28 => ⟨S1x2048x3072, .f32⟩
  | 29 => ⟨S1x2048x3072, .f32⟩
  | 30 => ⟨S_, .f32⟩
  | 31 => ⟨S1x2048x3072, .f32⟩
  | 32 => ⟨S1x2048x3072, .f32⟩
  | 33 => ⟨S1x2048x3072, .f32⟩
  | 34 => ⟨S_, .f32⟩
  | 35 => ⟨S1x2048x3072, .f32⟩
  | 36 => ⟨S1x2048x3072, .f32⟩
  | 37 => ⟨S1x2048x3072, .f32⟩
  | 38 => ⟨S_, .f32⟩
  | 39 => ⟨S1x2048x3072, .f32⟩
  | 40 => ⟨S1x2048x3072, .f32⟩
  | 41 => ⟨S_, .f32⟩
  | 42 => ⟨S1x2048x3072, .f32⟩
  | 43 => ⟨S1x2048x3072, .f32⟩
  | 44 => ⟨S1x2048x3072, .f32⟩
  | 45 => ⟨S1x3072x768, .f32⟩
  | 46 => ⟨S3072x768, .f32⟩
  | 47 => ⟨S1x2048x768, .f32⟩
  | 48 => ⟨S1x768, .f32⟩
  | 49 => ⟨S768, .f32⟩
  | 50 => ⟨S1x1x768, .f32⟩
  | 51 => ⟨S1x2048x768, .f32⟩
  | 52 => ⟨S1x2048x768, .f32⟩
  | 53 => ⟨S1x1x2048x768, .f32⟩
  | 54 => ⟨S1x2048x768, .f32⟩
  | 55 => ⟨S1x768x3072, .f32⟩
  | 56 => ⟨S768x3072, .f32⟩
  | 57 => ⟨S1x2048x3072, .f32⟩
  | 58 => ⟨S1x3072, .f32⟩
  | 59 => ⟨S3072, .f32⟩
  | 60 => ⟨S1x1x3072, .f32⟩
  | 61 => ⟨S1x2048x3072, .f32⟩
  | 62 => ⟨S1x2048x3072, .f32⟩
  | 63 => ⟨S1x2048x3072, .f32⟩
  | 64 => ⟨S1x2048x3072, .f32⟩
  | 65 => ⟨S_, .f32⟩
  | 66 => ⟨S1x2048x3072, .f32⟩
  | 67 => ⟨S1x2048x3072, .f32⟩
  | 68 => ⟨S1x2048x3072, .f32⟩
  | 69 => ⟨S_, .f32⟩
  | 70 => ⟨S1x2048x3072, .f32⟩
  | 71 => ⟨S1x2048x3072, .f32⟩
  | 72 => ⟨S1x2048x3072, .f32⟩
  | 73 => ⟨S_, .f32⟩
  | 74 => ⟨S1x2048x3072, .f32⟩
  | 75 => ⟨S1x2048x3072, .f32⟩
  | 76 => ⟨S_, .f32⟩
  | 77 => ⟨S1x2048x3072, .f32⟩
  | 78 => ⟨S1x2048x3072, .f32⟩
  | 79 => ⟨S1x2048x3072, .f32⟩
  | 80 => ⟨S1x3072x768, .f32⟩
  | 81 => ⟨S3072x768, .f32⟩
  | 82 => ⟨S1x2048x768, .f32⟩
  | 83 => ⟨S1x768, .f32⟩
  | 84 => ⟨S768, .f32⟩
  | 85 => ⟨S1x1x768, .f32⟩
  | 86 => ⟨S1x2048x768, .f32⟩
  | 87 => ⟨S1x2048x768, .f32⟩
  | 88 => ⟨S1x1x2048x768, .f32⟩
  | 89 => ⟨S1x2048x768, .f32⟩
  | 90 => ⟨S1x768x3072, .f32⟩
  | 91 => ⟨S768x3072, .f32⟩
  | 92 => ⟨S1x2048x3072, .f32⟩
  | 93 => ⟨S1x3072, .f32⟩
  | 94 => ⟨S3072, .f32⟩
  | 95 => ⟨S1x1x3072, .f32⟩
  | 96 => ⟨S1x2048x3072, .f32⟩
  | 97 => ⟨S1x2048x3072, .f32⟩
  | 98 => ⟨S1x2048x3072, .f32⟩
  | 99 => ⟨S1x2048x3072, .f32⟩
  | 100 => ⟨S_, .f32⟩
  | 101 => ⟨S1x2048x3072, .f32⟩
  | 102 => ⟨S1x2048x3072, .f32⟩
  | 103 => ⟨S1x2048x3072, .f32⟩
  | 104 => ⟨S_, .f32⟩
  | 105 => ⟨S1x2048x3072, .f32⟩
  | 106 => ⟨S1x2048x3072, .f32⟩
  | 107 => ⟨S1x2048x3072, .f32⟩
  | 108 => ⟨S_, .f32⟩
  | 109 => ⟨S1x2048x3072, .f32⟩
  | 110 => ⟨S1x2048x3072, .f32⟩
  | 111 => ⟨S_, .f32⟩
  | 112 => ⟨S1x2048x3072, .f32⟩
  | 113 => ⟨S1x2048x3072, .f32⟩
  | 114 => ⟨S1x2048x3072, .f32⟩
  | 115 => ⟨S1x3072x768, .f32⟩
  | 116 => ⟨S3072x768, .f32⟩
  | 117 => ⟨S1x2048x768, .f32⟩
  | 118 => ⟨S1x768, .f32⟩
  | 119 => ⟨S768, .f32⟩
  | 120 => ⟨S1x1x768, .f32⟩
  | 121 => ⟨S1x2048x768, .f32⟩
  | 122 => ⟨S1x2048x768, .f32⟩
  | 123 => ⟨S1x1x2048x768, .f32⟩
  | 124 => ⟨S1x2048x768, .f32⟩
  | 125 => ⟨S1x768x3072, .f32⟩
  | 126 => ⟨S768x3072, .f32⟩
  | 127 => ⟨S1x2048x3072, .f32⟩
  | _ => ⟨S1x8x2048x768, .f32⟩

abbrev hbmTy0_2 (i : Nat) : BufTy := match i % 128 with
  | 0 => ⟨S1x3072, .f32⟩
  | 1 => ⟨S3072, .f32⟩
  | 2 => ⟨S1x1x3072, .f32⟩
  | 3 => ⟨S1x2048x3072, .f32⟩
  | 4 => ⟨S1x2048x3072, .f32⟩
  | 5 => ⟨S1x2048x3072, .f32⟩
  | 6 => ⟨S1x2048x3072, .f32⟩
  | 7 => ⟨S_, .f32⟩
  | 8 => ⟨S1x2048x3072, .f32⟩
  | 9 => ⟨S1x2048x3072, .f32⟩
  | 10 => ⟨S1x2048x3072, .f32⟩
  | 11 => ⟨S_, .f32⟩
  | 12 => ⟨S1x2048x3072, .f32⟩
  | 13 => ⟨S1x2048x3072, .f32⟩
  | 14 => ⟨S1x2048x3072, .f32⟩
  | 15 => ⟨S_, .f32⟩
  | 16 => ⟨S1x2048x3072, .f32⟩
  | 17 => ⟨S1x2048x3072, .f32⟩
  | 18 => ⟨S_, .f32⟩
  | 19 => ⟨S1x2048x3072, .f32⟩
  | 20 => ⟨S1x2048x3072, .f32⟩
  | 21 => ⟨S1x2048x3072, .f32⟩
  | 22 => ⟨S1x3072x768, .f32⟩
  | 23 => ⟨S3072x768, .f32⟩
  | 24 => ⟨S1x2048x768, .f32⟩
  | 25 => ⟨S1x768, .f32⟩
  | 26 => ⟨S768, .f32⟩
  | 27 => ⟨S1x1x768, .f32⟩
  | 28 => ⟨S1x2048x768, .f32⟩
  | 29 => ⟨S1x2048x768, .f32⟩
  | 30 => ⟨S1x1x2048x768, .f32⟩
  | 31 => ⟨S1x1x2048x768, .f32⟩
  | 32 => ⟨S1x1x2048x768, .f32⟩
  | 33 => ⟨S1x1x2048x768, .f32⟩
  | 34 => ⟨S1x1x2048x768, .f32⟩
  | 35 => ⟨S1x1x2048x768, .f32⟩
  | 36 => ⟨S1x1x2048x768, .f32⟩
  | 37 => ⟨S1x1x2048x768, .f32⟩
  | 38 => ⟨S8x1x2048x768, .f32⟩
  | 39 => ⟨S1x8x2048x768, .f32⟩
  | _ => ⟨S1x8x2048x768, .f32⟩

abbrev hbmTy (i : Nat) : BufTy := match i / 128 with
  | 0 => hbmTy0_0 i
  | 1 => hbmTy0_1 i
  | 2 => hbmTy0_2 i
  | _ => ⟨S1x8x2048x768, .f32⟩

abbrev bufTy : (tb : Table) → Fin (tcTables nBuf tb) → BufTy
  | .hbm, ⟨i, _⟩ => hbmTy i
  | _, _ => ⟨S1x8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_7 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_8 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_9 : Ref sig .tc := ⟨.hbm, 96, rfl⟩
abbrev main_v81 : Ref sig .tc := ⟨.hbm, 97, rfl⟩
abbrev main_v82 : Ref sig .tc := ⟨.hbm, 98, rfl⟩
abbrev main_cst_10 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_cst_11 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_cst_12 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_13 : Ref sig .tc := ⟨.hbm, 131, rfl⟩
abbrev main_v112 : Ref sig .tc := ⟨.hbm, 132, rfl⟩
abbrev main_v113 : Ref sig .tc := ⟨.hbm, 133, rfl⟩
abbrev main_cst_14 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_cst_15 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_cst_16 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_cst_17 : Ref sig .tc := ⟨.hbm, 166, rfl⟩
abbrev main_v143 : Ref sig .tc := ⟨.hbm, 167, rfl⟩
abbrev main_v144 : Ref sig .tc := ⟨.hbm, 168, rfl⟩
abbrev main_cst_18 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_cst_19 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_cst_20 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_cst_21 : Ref sig .tc := ⟨.hbm, 201, rfl⟩
abbrev main_v174 : Ref sig .tc := ⟨.hbm, 202, rfl⟩
abbrev main_v175 : Ref sig .tc := ⟨.hbm, 203, rfl⟩
abbrev main_cst_22 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_cst_23 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_cst_24 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_cst_25 : Ref sig .tc := ⟨.hbm, 236, rfl⟩
abbrev main_v205 : Ref sig .tc := ⟨.hbm, 237, rfl⟩
abbrev main_v206 : Ref sig .tc := ⟨.hbm, 238, rfl⟩
abbrev main_cst_26 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_cst_27 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_cst_28 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_cst_29 : Ref sig .tc := ⟨.hbm, 271, rfl⟩
abbrev main_v236 : Ref sig .tc := ⟨.hbm, 272, rfl⟩
abbrev main_v237 : Ref sig .tc := ⟨.hbm, 273, rfl⟩
abbrev main_cst_30 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩

abbrev nD : Nat := 1
abbrev τ : Topo := Topo.v7x

variable {F : FTy → Type} [FloatOps F]

class Facts₀ : Prop where
  transposes_S1x8x2048x768_S8x1x2048x768_1_0_2_3 : S1x8x2048x768.Transposes [1, 0, 2, 3] S8x1x2048x768
  slices_S8x1x2048x768_S1x1x2048x768_0_0_0_0 : S8x1x2048x768.Slices ![0, 0, 0, 0] S1x1x2048x768
  shapeCasts_S1x1x2048x768_S1x2048x768 : S1x1x2048x768.ShapeCasts S1x2048x768
  slices_S8x768x3072_S1x768x3072_0_0_0 : S8x768x3072.Slices ![0, 0, 0] S1x768x3072
  shapeCasts_S1x768x3072_S768x3072 : S1x768x3072.ShapeCasts S768x3072
  slices_S8x3072_S1x3072_0_0 : S8x3072.Slices ![0, 0] S1x3072
  shapeCasts_S1x3072_S3072 : S1x3072.ShapeCasts S3072
  bcast_S3072_S1x1x3072_2 : S3072.BroadcastsInDim S1x1x3072 (![2] : Fin 1 → Fin S1x1x3072.rank)
  bcast_S1x1x3072_S1x2048x3072_0_1_2 : S1x1x3072.BroadcastsInDim S1x2048x3072 (![0, 1, 2] : Fin 3 → Fin S1x2048x3072.rank)
  bcast_S_S1x2048x3072 : S_.BroadcastsInDim S1x2048x3072 (![] : Fin 0 → Fin S1x2048x3072.rank)
  slices_S8x3072x768_S1x3072x768_0_0_0 : S8x3072x768.Slices ![0, 0, 0] S1x3072x768
  shapeCasts_S1x3072x768_S3072x768 : S1x3072x768.ShapeCasts S3072x768
  slices_S8x768_S1x768_0_0 : S8x768.Slices ![0, 0] S1x768
  shapeCasts_S1x768_S768 : S1x768.ShapeCasts S768
  bcast_S768_S1x1x768_2 : S768.BroadcastsInDim S1x1x768 (![2] : Fin 1 → Fin S1x1x768.rank)
  bcast_S1x1x768_S1x2048x768_0_1_2 : S1x1x768.BroadcastsInDim S1x2048x768 (![0, 1, 2] : Fin 3 → Fin S1x2048x768.rank)
  slices_S8x1x2048x768_S1x1x2048x768_1_0_0_0 : S8x1x2048x768.Slices ![1, 0, 0, 0] S1x1x2048x768
  slices_S8x768x3072_S1x768x3072_1_0_0 : S8x768x3072.Slices ![1, 0, 0] S1x768x3072
  slices_S8x3072_S1x3072_1_0 : S8x3072.Slices ![1, 0] S1x3072
  slices_S8x3072x768_S1x3072x768_1_0_0 : S8x3072x768.Slices ![1, 0, 0] S1x3072x768
  slices_S8x768_S1x768_1_0 : S8x768.Slices ![1, 0] S1x768
  slices_S8x1x2048x768_S1x1x2048x768_2_0_0_0 : S8x1x2048x768.Slices ![2, 0, 0, 0] S1x1x2048x768
  slices_S8x768x3072_S1x768x3072_2_0_0 : S8x768x3072.Slices ![2, 0, 0] S1x768x3072
  slices_S8x3072_S1x3072_2_0 : S8x3072.Slices ![2, 0] S1x3072
  slices_S8x3072x768_S1x3072x768_2_0_0 : S8x3072x768.Slices ![2, 0, 0] S1x3072x768
  slices_S8x768_S1x768_2_0 : S8x768.Slices ![2, 0] S1x768
  slices_S8x1x2048x768_S1x1x2048x768_3_0_0_0 : S8x1x2048x768.Slices ![3, 0, 0, 0] S1x1x2048x768
  slices_S8x768x3072_S1x768x3072_3_0_0 : S8x768x3072.Slices ![3, 0, 0] S1x768x3072
  slices_S8x3072_S1x3072_3_0 : S8x3072.Slices ![3, 0] S1x3072
  slices_S8x3072x768_S1x3072x768_3_0_0 : S8x3072x768.Slices ![3, 0, 0] S1x3072x768
  slices_S8x768_S1x768_3_0 : S8x768.Slices ![3, 0] S1x768
  slices_S8x1x2048x768_S1x1x2048x768_4_0_0_0 : S8x1x2048x768.Slices ![4, 0, 0, 0] S1x1x2048x768
  slices_S8x768x3072_S1x768x3072_4_0_0 : S8x768x3072.Slices ![4, 0, 0] S1x768x3072
  slices_S8x3072_S1x3072_4_0 : S8x3072.Slices ![4, 0] S1x3072
  slices_S8x3072x768_S1x3072x768_4_0_0 : S8x3072x768.Slices ![4, 0, 0] S1x3072x768
  slices_S8x768_S1x768_4_0 : S8x768.Slices ![4, 0] S1x768
  slices_S8x1x2048x768_S1x1x2048x768_5_0_0_0 : S8x1x2048x768.Slices ![5, 0, 0, 0] S1x1x2048x768
  slices_S8x768x3072_S1x768x3072_5_0_0 : S8x768x3072.Slices ![5, 0, 0] S1x768x3072
  slices_S8x3072_S1x3072_5_0 : S8x3072.Slices ![5, 0] S1x3072
  slices_S8x3072x768_S1x3072x768_5_0_0 : S8x3072x768.Slices ![5, 0, 0] S1x3072x768
  slices_S8x768_S1x768_5_0 : S8x768.Slices ![5, 0] S1x768
  slices_S8x1x2048x768_S1x1x2048x768_6_0_0_0 : S8x1x2048x768.Slices ![6, 0, 0, 0] S1x1x2048x768
  slices_S8x768x3072_S1x768x3072_6_0_0 : S8x768x3072.Slices ![6, 0, 0] S1x768x3072
  slices_S8x3072_S1x3072_6_0 : S8x3072.Slices ![6, 0] S1x3072
  slices_S8x3072x768_S1x3072x768_6_0_0 : S8x3072x768.Slices ![6, 0, 0] S1x3072x768
  slices_S8x768_S1x768_6_0 : S8x768.Slices ![6, 0] S1x768
  slices_S8x1x2048x768_S1x1x2048x768_7_0_0_0 : S8x1x2048x768.Slices ![7, 0, 0, 0] S1x1x2048x768
  slices_S8x768x3072_S1x768x3072_7_0_0 : S8x768x3072.Slices ![7, 0, 0] S1x768x3072
  slices_S8x3072_S1x3072_7_0 : S8x3072.Slices ![7, 0] S1x3072
  slices_S8x3072x768_S1x3072x768_7_0_0 : S8x3072x768.Slices ![7, 0, 0] S1x3072x768
  slices_S8x768_S1x768_7_0 : S8x768.Slices ![7, 0] S1x768
  bcast_S1x2048x768_S1x1x2048x768_1_2_3 : S1x2048x768.BroadcastsInDim S1x1x2048x768 (![1, 2, 3] : Fin 3 → Fin S1x1x2048x768.rank)
  concatenates_S1x1x2048x768_S1x1x2048x768_S1x1x2048x768_S1x1x2048x768_S1x1x2048x768_S1x1x2048x768_S1x1x2048x768_S1x1x2048x768_S8x1x2048x768_d0 : Shape.Concatenates [S1x1x2048x768, S1x1x2048x768, S1x1x2048x768, S1x1x2048x768, S1x1x2048x768, S1x1x2048x768, S1x1x2048x768, S1x1x2048x768] S8x1x2048x768 0
  transposes_S8x1x2048x768_S1x8x2048x768_1_0_2_3 : S8x1x2048x768.Transposes [1, 0, 2, 3] S1x8x2048x768
  dot_S1x2048x768_S768x3072_S1x2048x3072_2_0_01_1_n_n_wf : DotDims.WF S1x2048x768 S768x3072 S1x2048x3072 [2] [0] [0, 1] [1] [] []
  dot_S1x2048x3072_S3072x768_S1x2048x768_2_0_01_1_n_n_wf : DotDims.WF S1x2048x3072 S3072x768 S1x2048x768 [2] [0] [0, 1] [1] [] []

variable [Facts₀]

def dot_S1x2048x768_S768x3072_S1x2048x3072_2_0_01_1_n_n : DotDims S1x2048x768 S768x3072 S1x2048x3072 where
  lhsContracting := [2]
  rhsContracting := [0]
  lhsNonContracting := [0, 1]
  rhsNonContracting := [1]
  lhsBatch := []
  rhsBatch := []
  wf := dot_S1x2048x768_S768x3072_S1x2048x3072_2_0_01_1_n_n_wf
def dot_S1x2048x3072_S3072x768_S1x2048x768_2_0_01_1_n_n : DotDims S1x2048x3072 S3072x768 S1x2048x768 where
  lhsContracting := [2]
  rhsContracting := [0]
  lhsNonContracting := [0, 1]
  rhsNonContracting := [1]
  lhsBatch := []
  rhsBatch := []
  wf := dot_S1x2048x3072_S3072x768_S1x2048x768_2_0_01_1_n_n_wf

class Facts : Prop extends Facts₀ where

variable [Facts]
-- ==== Proof.Spec.lean ====
/-
  The function both programs compute, and the one law that joins their two arrangements.

  For expert `e`, token `n` and output feature `d`:
    hidden e n k = (∑ j < 768, x[0, e, n, j] · W1[e, j, k]) + b1[e, k]            (k < 3072)
    out  e n d   = (∑ k < 3072, gelu (hidden e n k) · W2[e, k, d]) + b2[e, d]
  where `gelu h = h · (½ · (1 + tanh (c₁ · (h + c₀ · (h · (h · h))))))` with the two float literals `c₀`, `c₁` kept as
  their binary words (the same words on both sides, so they are never evaluated).

  One program adds the bias last, after one sum over all 3072 hidden features; the other starts from the bias and adds
  the hidden features in two halves of 1536. On the extended reals addition is commutative and associative, so the two
  agree with no finiteness assumption: `two_halves`.
-/
import Idealize.ShloMosaic.Lib.ValueIdx
import Idealize.ShloMosaic.PureOps.Ideal

noncomputable section

open scoped BigOperators

namespace Cert.Mlp

open Idealize.ShloMosaic Idealize.ShloMosaic.ValueIdx

/-- The tanh form of GELU on the extended reals, its four literals as binary words. -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

/-- The cube may be grouped either way. -/
theorem gelu_cube_left (h : EReal) :
    h * (Ideal.ofBits .f32 0x3F000000#32 * (Ideal.ofBits .f32 0x3F800000#32
      + Ideal.tanh (Ideal.ofBits .f32 0x3F4C422A#32 * (h + Ideal.ofBits .f32 0x3D372713#32 * ((h * h) * h))))) = gelu h := by
  unfold gelu
  rw [mul_comm (h * h) h]

/-- The first layer's pre-activation of expert `e` at token `n`, hidden feature `k`. -/
def hidden (x : (⟨4, ![1, 8, 2048, 768]⟩ : Shape).Idx → EReal) (W1 : (⟨3, ![8, 768, 3072]⟩ : Shape).Idx → EReal)
    (b1 : (⟨2, ![8, 3072]⟩ : Shape).Idx → EReal) (e : Fin 8) (n : Fin 2048) (k : Fin 3072) : EReal :=
  (∑ j : Fin 768, x (ix4 (0 : Fin 1) e n j) * W1 (ix3 e j k)) + b1 (ix2 e k)

/-- One term of the second layer's sum. -/
def term (x : (⟨4, ![1, 8, 2048, 768]⟩ : Shape).Idx → EReal) (W1 : (⟨3, ![8, 768, 3072]⟩ : Shape).Idx → EReal)
    (b1 : (⟨2, ![8, 3072]⟩ : Shape).Idx → EReal) (W2 : (⟨3, ![8, 3072, 768]⟩ : Shape).Idx → EReal)
    (e : Fin 8) (n : Fin 2048) (d : Fin 768) (k : Fin 3072) : EReal :=
  gelu (hidden x W1 b1 e n k) * W2 (ix3 e k d)

/-- The expert network's output at expert `e`, token `n`, feature `d`. -/
def outAt (x : (⟨4, ![1, 8, 2048, 768]⟩ : Shape).Idx → EReal) (W1 : (⟨3, ![8, 768, 3072]⟩ : Shape).Idx → EReal)
    (b1 : (⟨2, ![8, 3072]⟩ : Shape).Idx → EReal) (W2 : (⟨3, ![8, 3072, 768]⟩ : Shape).Idx → EReal)
    (b2 : (⟨2, ![8, 768]⟩ : Shape).Idx → EReal) (e : Fin 8) (n : Fin 2048) (d : Fin 768) : EReal :=
  (∑ k : Fin 3072, term x W1 b1 W2 e n d k) + b2 (ix2 e d)

/-- The whole result array `[1, 8, 2048, 768]`. -/
def out (x : (⟨4, ![1, 8, 2048, 768]⟩ : Shape).Idx → EReal) (W1 : (⟨3, ![8, 768, 3072]⟩ : Shape).Idx → EReal)
    (b1 : (⟨2, ![8, 3072]⟩ : Shape).Idx → EReal) (W2 : (⟨3, ![8, 3072, 768]⟩ : Shape).Idx → EReal)
    (b2 : (⟨2, ![8, 768]⟩ : Shape).Idx → EReal) : (⟨4, ![1, 8, 2048, 768]⟩ : Shape).Idx → EReal :=
  fun i => outAt x W1 b1 W2 b2 (i 1) (i 2) (i 3)

/-- Hidden feature `k` of the lower half, and of the upper half. -/
abbrev lo (k : Fin 1536) : Fin 3072 := ⟨k.val, by have := k.isLt; omega⟩
abbrev hi (k : Fin 1536) : Fin 3072 := ⟨1536 + k.val, by have := k.isLt; omega⟩

/-- A sum over the 3072 hidden features is the sum over the lower half plus the sum over the upper half. -/
theorem sum_halves (f : Fin 3072 → EReal) : (∑ k : Fin 3072, f k) = (∑ k : Fin 1536, f (lo k)) + ∑ k : Fin 1536, f (hi k) := by
  have h : (1536 + 1536 : ℕ) = 3072 := by norm_num
  rw [← Fin.sum_congr' f h, Fin.sum_univ_add]
  rfl

/-- Bias first and the two halves added one after the other is the whole sum with the bias added last. -/
theorem two_halves (f : Fin 3072 → EReal) (b : EReal) :
    (b + ∑ k : Fin 1536, f (lo k)) + ∑ k : Fin 1536, f (hi k) = (∑ k : Fin 3072, f k) + b := by
  rw [sum_halves f, add_assoc, add_comm b]

end Cert.Mlp

end
-- ==== Proof.LibPlainDot.lean ====
/-
  A plain matrix product read at an index.

  For the dimension numbers of an `M×K` by `K×N` product (contract the left operand's columns with the right operand's
  rows, no batch axis), the left operand's index at result index `(p, q)` and contraction position `k` is `(p, k)` and the
  right operand's is `(k, q)`. So, at the exact values, the vector unit's product into the zero accumulator and the
  host's `dot_general` are both, at `(p, q)`, the sum over `k` of `l (p, k) · r (k, q)`.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- One axis is contracted, of extent `K`. -/
theorem contr_rank : (DotDims.plain M K N).contr.rank = 1 := rfl
theorem contr_size : (DotDims.plain M K N).contr.size ⟨0, by rw [contr_rank]; exact Nat.one_pos⟩ = K := rfl

/-- The contraction positions are the numbers below `K`. -/
abbrev pos : (DotDims.plain M K N).contr.Idx ≃ Fin K := contrEquiv1 (DotDims.plain M K N) K (contr_rank M K N) (contr_size M K N)

/-- On its row axis the left operand follows the result's row. -/
theorem lhsIdx_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its column axis the right operand follows the result's column. -/
theorem rhsIdx_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand is read at `(p, k)`. -/
theorem lhsIdx_eq (p : Fin M) (q : Fin N) (k : Fin K) :
    (DotDims.plain M K N).lhsIdx (ix2 p q) ((pos M K N).symm k) = ix2 p k := by
  have hk := contrEquiv1_symm_val (DotDims.plain M K N) K (contr_rank M K N) (contr_size M K N) k
  funext a
  apply Fin.ext
  match a with
  | ⟨0, _⟩ => exact lhsIdx_row M K N _ _
  | ⟨1, _⟩ => exact ((DotDims.plain M K N).lhsIdx_val_of_single (cl := (1 : Fin 2)) rfl _ _).trans hk

/-- The right operand is read at `(k, q)`. -/
theorem rhsIdx_eq (p : Fin M) (q : Fin N) (k : Fin K) :
    (DotDims.plain M K N).rhsIdx (ix2 p q) ((pos M K N).symm k) = ix2 k q := by
  have hk := contrEquiv1_symm_val (DotDims.plain M K N) K (contr_rank M K N) (contr_size M K N) k
  funext a
  apply Fin.ext
  match a with
  | ⟨0, _⟩ => exact ((DotDims.plain M K N).rhsIdx_val_of_single (cr := (0 : Fin 2)) rfl _ _).trans hk
  | ⟨1, _⟩ => exact rhsIdx_col M K N _ _

variable {M K N}

/-- The sum over contraction positions is the sum over `k < K` of the operands at `(p, k)` and `(k, q)`. -/
theorem sum_contr {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k) : EReal)
      = ∑ k : Fin K, l (ix2 p k) * r (ix2 k q) := by
  rw [← Equiv.sum_comp (pos M K N).symm]
  refine Finset.sum_congr rfl fun k _ => ?_
  rw [lhsIdx_eq, rhsIdx_eq]

/-- The vector unit's product into the zero accumulator, at `(p, q)`. -/
theorem matmul_zero_apply {φ₁ φ₂ : FTy} (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q) = ∑ k : Fin K, l (ix2 p k) * r (ix2 k q) :=
  (Ideal.matmul_constant_zero_apply _ prec l r _).trans (sum_contr l r p q)

/-- The host's `dot_general`, at `(p, q)`. -/
theorem dotGeneral_apply {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply _ prec sched l r _).trans (sum_contr l r p q)

end Cert.PlainDot

end
-- ==== Proof.BlockValue.lean ====
/-
  The kernel body's arithmetic on one block, read at an index.

  On a block of `M` tokens the body forms, for one half of the hidden features (`N` of them), the pre-activation
  `X · W + (bias row broadcast down the rows)` by a product into the zero accumulator, applies GELU entry by entry, and adds
  the product of the activations with the matching rows of the second weight matrix into the output block, which it first
  filled with the output bias row broadcast down the rows. Each of these steps is read here at an index, over vectors
  of any extents, so that the body's payloads are instances.
-/
import Idealize.ShloMosaic.Lib.ValueLayout
import Idealize.ShloMosaic.Lib.Pipeline.Value
import Idealize.ShloMosaic.Lib.Pipeline.FrameBody
import proofs.«114358_g18863496364575_cont_8to1_677_20_alg».proof.Proof.Spec
import proofs.«114358_g18863496364575_cont_8to1_677_20_alg».proof.Proof.LibPlainDot

noncomputable section

open scoped BigOperators

namespace Cert.MlpBlock

open Idealize.ShloMosaic Idealize.ShloMosaic.ValueIdx Cert.Mlp

/-- A load through a unit-stride rectangle reads the contents at the rectangle's offsets plus the index. -/
theorem ld_unit_apply {Val : EltTy → Type} {e : EltTy} {S : Shape} (X : S.Idx → Val e) (off size : Fin S.rank → ℕ)
    (inb : ∀ a, off a + size a ≤ S.size a) (j : (Rect.unit off size inb).shape.Idx) (k : S.Idx)
    (hk : ∀ a, (k a).val = off a + (j a).val) : View.ld X (Rect.unit off size inb) j = X k :=
  congrArg X (funext fun a => Fin.ext (by
    show off a + 1 * (j a).val = (k a).val
    rw [Nat.one_mul]; exact (hk a).symm))

/-- GELU entry by entry, as the body spells it: `h · (½ · (1 + tanh (c₁ · (h + c₀ · (h · (h · h))))))`. -/
def act {S : Shape} (h : FVec Ideal S .f32) : FVec Ideal S .f32 :=
  mulf h (mulf (broadcast S (Scalar.ofBits .f32 0x3F000000#32)) (addf (broadcast S (Scalar.ofBits .f32 0x3F800000#32))
    (tanh (mulf (broadcast S (Scalar.ofBits .f32 0x3F4C422A#32)) (addf h (mulf (broadcast S (Scalar.ofBits .f32 0x3D372713#32))
      (mulf h (mulf h h))))))))

theorem act_apply {S : Shape} (h : FVec Ideal S .f32) (i : S.Idx) : act h i = gelu (h i) := rfl

/-- The pre-activation of one half: a product into the zero accumulator plus the bias row, at `(p, q)`. -/
theorem pre_apply {M K N : ℕ} (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (brow : FVec Ideal ⟨2, ![1, N]⟩ .f32)
    (hb : (⟨2, ![1, N]⟩ : Shape).Broadcasts ⟨2, ![M, N]⟩) (p : Fin M) (q : Fin N) :
    addf (matmul d none X W (constant ⟨2, ![M, N]⟩ .f32 0x00000000#32)) (broadcastTo ⟨2, ![M, N]⟩ brow hb) (ix2 p q)
      = (∑ j : Fin K, X (ix2 p j) * W (ix2 j q)) + brow (ix2 (0 : Fin 1) q) := by
  subst hd
  show FloatOps.matmul _ none X W _ (ix2 p q) + broadcastTo ⟨2, ![M, N]⟩ brow hb (ix2 p q) = _
  rw [Cert.PlainDot.matmul_zero_apply, broadcastTo_1b_ab_apply]

/-- The output block after one more half: what it held plus the activations times the half's rows of the second
    weight matrix, at `(0, p, q)`. -/
theorem accum_apply {M K N : ℕ} (d : DotDims ⟨2, ![M, K]⟩ ⟨2, ![K, N]⟩ ⟨2, ![M, N]⟩) (hd : d = DotDims.plain M K N)
    (G : FVec Ideal ⟨2, ![M, K]⟩ .f32) (acc : FVec Ideal ⟨3, ![1, M, N]⟩ .f32) (W : FVec Ideal ⟨3, ![1, K, N]⟩ .f32)
    (h1 : (⟨3, ![1, M, N]⟩ : Shape).ShapeCasts ⟨2, ![M, N]⟩) (h2 : (⟨3, ![1, K, N]⟩ : Shape).ShapeCasts ⟨2, ![K, N]⟩)
    (h3 : (⟨2, ![M, N]⟩ : Shape).ShapeCasts ⟨3, ![1, M, N]⟩) (p : Fin M) (q : Fin N) :
    shapeCast ⟨3, ![1, M, N]⟩ (addf (shapeCast ⟨2, ![M, N]⟩ acc h1)
      (matmul d none G (shapeCast ⟨2, ![K, N]⟩ W h2) (constant ⟨2, ![M, N]⟩ .f32 0x00000000#32))) h3 (ix3 (0 : Fin 1) p q)
      = acc (ix3 (0 : Fin 1) p q) + ∑ k : Fin K, G (ix2 p k) * W (ix3 (0 : Fin 1) k q) := by
  subst hd
  rw [shapeCast_ab_1ab_apply]
  show shapeCast ⟨2, ![M, N]⟩ acc h1 (ix2 p q) + FloatOps.matmul _ none G _ _ (ix2 p q) = _
  rw [shapeCast_1ab_ab_apply, Cert.PlainDot.matmul_zero_apply]
  refine congrArg (acc (ix3 (0 : Fin 1) p q) + ·) (Finset.sum_congr rfl fun k _ => ?_)
  rw [shapeCast_1ab_ab_apply]

/-- The output block as first filled: the bias row broadcast down the rows, at `(0, p, q)`. -/
theorem fill_apply {M N : ℕ} (b : FVec Ideal ⟨3, ![1, 1, N]⟩ .f32)
    (h1 : (⟨3, ![1, 1, N]⟩ : Shape).ShapeCasts ⟨2, ![1, N]⟩) (h2 : (⟨2, ![1, N]⟩ : Shape).ShapeCasts ⟨2, ![1, N]⟩)
    (hb : (⟨2, ![1, N]⟩ : Shape).Broadcasts ⟨2, ![M, N]⟩) (h3 : (⟨2, ![M, N]⟩ : Shape).ShapeCasts ⟨3, ![1, M, N]⟩)
    (p : Fin M) (q : Fin N) :
    shapeCast ⟨3, ![1, M, N]⟩ (broadcastTo ⟨2, ![M, N]⟩ (shapeCast ⟨2, ![1, N]⟩ (shapeCast ⟨2, ![1, N]⟩ b h1) h2) hb) h3
      (ix3 (0 : Fin 1) p q) = b (ix3 (0 : Fin 1) (0 : Fin 1) q) := by
  rw [shapeCast_ab_1ab_apply, broadcastTo_1b_ab_apply, shapeCast_self, shapeCast_1ab_ab_apply]

/-- A `[1, 1, N]` bias row as a `[1, N]` row, at `(0, q)`. -/
theorem row_apply {N : ℕ} (b : FVec Ideal ⟨3, ![1, 1, N]⟩ .f32) (h1 : (⟨3, ![1, 1, N]⟩ : Shape).ShapeCasts ⟨2, ![1, N]⟩)
    (q : Fin N) : shapeCast ⟨2, ![1, N]⟩ b h1 (ix2 (0 : Fin 1) q) = b (ix3 (0 : Fin 1) (0 : Fin 1) q) :=
  shapeCast_1ab_ab_apply b h1 (0 : Fin 1) q

end Cert.MlpBlock

end
-- ==== Proof.KernelPiece.lean ====
/-
  What the kernel body leaves in its output block, as a value.

  The body fills the output block with the output bias row, adds the lower half's contribution `gelu (x·W1ₗ + b1ₗ) · W2ₗ`,
  then the upper half's, each time loading the block it stored before. Every store covers the whole block, so what is left
  is the last store's payload, the loads of the block reading the payload stored just before (`block_eq`). At the exact
  values that composition, at token row `p` and feature `q` of the block, is
    (b2 q + ∑ k < 1536, gelu (hₗ k) · W2 (k, q)) + ∑ k < 1536, gelu (hᵤ k) · W2 (1536 + k, q)
  with `h k = (∑ j, x (p, j) · W1 (j, k)) + b1 k` at the half's hidden features (`block_apply`).
-/
import proofs.«114358_g18863496364575_cont_8to1_677_20_alg».proof.Proof.Gen.KernelIdeal.Frame
import proofs.«114358_g18863496364575_cont_8to1_677_20_alg».proof.Proof.BlockValue
import Idealize.ShloMosaic.Lib.Pipeline.Value
import Idealize.ShloMosaic.Lib.Tactic

noncomputable section

open scoped BigOperators

open Idealize.ShloMosaic Idealize.ShloMosaic.TcCoe Idealize.SL.Sem

namespace Cert.KernelIdeal.KValue

open Cert.KernelIdeal Cert.KernelIdeal.Gen Idealize.ShloMosaic.ValueIdx Cert.Mlp

theorem hz3 : (![0, 0, 0] : Fin 3 → Nat) = fun _ => 0 := funext fun a => by fin_cases a <;> rfl

/-- A load of the whole block after several stores of which the LAST covered the whole block reads that store's payload. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

section AnyInstance
variable {F : FTy → Type} [FloatOps F]

/-- The body's stores composed: the upper half's store over the lower half's over the bias fill, each half's operands
    loaded from the weight blocks at the half's offset. -/
def block (x0 : Vec F S1x1024x768 .f32) (x1 : Vec F S1x768x3072 .f32) (x2 : Vec F S1x1x3072 .f32) (x3 : Vec F S1x3072x768 .f32)
    (x4 : Vec F S1x1x768 .f32) : Vec F S1x1024x768 .f32 :=
  k0_pay1 (k0_pay7
    (k0_pay5 x0 (View.ld x1 (Rect.unit (s := S1x768x3072) ![0, 0, 1536] S1x768x1536.size inb_S1x768x3072_S1x768x1536_0_0_1536)))
    (View.ld x2 (Rect.unit (s := S1x1x3072) ![0, 0, 1536] S1x1x1536.size inb_S1x1x3072_S1x1x1536_0_0_1536))
    (k0_pay6
      (k0_pay4 x0 (View.ld x1 (Rect.unit (s := S1x768x3072) ![0, 0, 0] S1x768x1536.size inb_S1x768x3072_S1x768x1536_0_0_0))
        (View.ld x2 (Rect.unit (s := S1x1x3072) ![0, 0, 0] S1x1x1536.size inb_S1x1x3072_S1x1x1536_0_0_0)))
      (k0_pay3 x4)
      (View.ld x3 (Rect.unit (s := S1x3072x768) ![0, 0, 0] S1x1536x768.size inb_S1x3072x768_S1x1536x768_0_0_0)))
    (View.ld x3 (Rect.unit (s := S1x3072x768) ![0, 1536, 0] S1x1536x768.size inb_S1x3072x768_S1x1536x768_0_1536_0)))

/-- What the body leaves in the output's staging buffer is that composition of the input blocks. -/
theorem block_eq (c : Dev nD) (i : grid0.Coords) (arg2 : Memref sig .tc .vmem S1x1024x768 .f32) (harg2 : arg2.IsWhole) (arg3 : Memref sig .tc .vmem S1x768x3072 .f32) (harg3 : arg3.IsWhole) (arg4 : Memref sig .tc .vmem S1x1x3072 .f32) (harg4 : arg4.IsWhole) (arg5 : Memref sig .tc .vmem S1x3072x768 .f32) (harg5 : arg5.IsWhole) (arg6 : Memref sig .tc .vmem S1x1x768 .f32) (harg6 : arg6.IsWhole) (arg7 : Memref sig .tc .vmem S1x1024x768 .f32) (harg7 : arg7.IsWhole)
    (x0 : Vec F S1x1024x768 .f32) (x1 : Vec F S1x768x3072 .f32) (x2 : Vec F S1x1x3072 .f32) (x3 : Vec F S1x3072x768 .f32) (x4 : Vec F S1x1x768 .f32) :
    out0_A_5 c i arg2 harg2 arg3 harg3 arg4 harg4 arg5 harg5 arg6 harg6 arg7 harg7 x0 x1 x2 x3 x4 = block x0 x1 x2 x3 x4 := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_words
  rw [View.canon_cons_unit_zero (S := S1x1024x768) hz3]
  simp only [readCov_cons_unit_zero (S := S1x1024x768) _ hz3, View.readAt_eq_ld, harg2.read_unread, harg3.read_unread,
    harg4.read_unread, harg5.read_unread, harg6.read_unread, View.ld_unit_zero (S := S1x1024x768) hz3,
    View.ld_unit_zero (S := S1x1x768) hz3]
  rfl

end AnyInstance

/-- The block the body leaves, at token row `p` and feature `q`, at the exact values. -/
theorem block_apply (x0 : Vec Ideal S1x1024x768 .f32) (x1 : Vec Ideal S1x768x3072 .f32) (x2 : Vec Ideal S1x1x3072 .f32)
    (x3 : Vec Ideal S1x3072x768 .f32) (x4 : Vec Ideal S1x1x768 .f32) (p : Fin 1024) (q : Fin 768) :
    block (F := Ideal) x0 x1 x2 x3 x4 (ix3 (0 : Fin 1) p q)
      = (x4 (ix3 (0 : Fin 1) (0 : Fin 1) q)
          + ∑ k : Fin 1536, gelu ((∑ j : Fin 768, x0 (ix3 (0 : Fin 1) p j) * x1 (ix3 (0 : Fin 1) j (lo k)))
              + x2 (ix3 (0 : Fin 1) (0 : Fin 1) (lo k))) * x3 (ix3 (0 : Fin 1) (lo k) q))
        + ∑ k : Fin 1536, gelu ((∑ j : Fin 768, x0 (ix3 (0 : Fin 1) p j) * x1 (ix3 (0 : Fin 1) j (hi k)))
              + x2 (ix3 (0 : Fin 1) (0 : Fin 1) (hi k))) * x3 (ix3 (0 : Fin 1) (hi k) q) := by
  unfold block k0_pay1 k0_pay7 k0_pay6 k0_pay5 k0_pay4 k0_pay3 k0_pay2
  dsimp only
  refine (Cert.MlpBlock.accum_apply dot_S1024x1536_S1536x768_S1024x768_1_0_0_1_n_n rfl _ _ _ _ _ _ p q).trans ?_
  refine congr (congrArg HAdd.hAdd ?_) (Finset.sum_congr rfl fun k _ => ?_)
  · refine (Cert.MlpBlock.accum_apply dot_S1024x1536_S1536x768_S1024x768_1_0_0_1_n_n rfl _ _ _ _ _ _ p q).trans ?_
    refine congr (congrArg HAdd.hAdd ?_) (Finset.sum_congr rfl fun k _ => ?_)
    · exact Cert.MlpBlock.fill_apply x4 _ _ _ _ p q
    ·
      refine congr (congrArg HMul.hMul ?_) ?_
      · refine (Cert.MlpBlock.act_apply _ (ix2 p k)).trans (congrArg gelu ?_)
        refine (Cert.MlpBlock.pre_apply dot_S1024x768_S768x1536_S1024x1536_1_0_0_1_n_n rfl _ _ _ _ p k).trans ?_
        refine congr (congrArg HAdd.hAdd (Finset.sum_congr rfl fun j _ => ?_)) ?_
        · refine congr (congrArg HMul.hMul (shapeCast_1ab_ab_apply x0 _ p j)) ?_
          refine (shapeCast_1ab_ab_apply _ _ j k).trans ?_
          refine Cert.MlpBlock.ld_unit_apply x1 _ _ _ (ix3 (0 : Fin 1) j k) (ix3 (0 : Fin 1) j (lo k)) ?_
          intro a
          match a with
          | ⟨0, _⟩ => rfl
          | ⟨1, _⟩ => exact (Nat.zero_add _).symm
          | ⟨2, _⟩ => exact (Nat.zero_add _).symm
        · refine (Cert.MlpBlock.row_apply _ _ k).trans ?_
          refine Cert.MlpBlock.ld_unit_apply x2 _ _ _ (ix3 (0 : Fin 1) (0 : Fin 1) k) (ix3 (0 : Fin 1) (0 : Fin 1) (lo k)) ?_
          intro a
          match a with
          | ⟨0, _⟩ => rfl
          | ⟨1, _⟩ => rfl
          | ⟨2, _⟩ => exact (Nat.zero_add _).symm
      · refine Cert.MlpBlock.ld_unit_apply x3 _ _ _ (ix3 (0 : Fin 1) k q) (ix3 (0 : Fin 1) (lo k) q) ?_
        intro a
        match a with
        | ⟨0, _⟩ => rfl
        | ⟨1, _⟩ => exact (Nat.zero_add _).symm
        | ⟨2, _⟩ => exact (Nat.zero_add _).symm
  ·
    refine congr (congrArg HMul.hMul ?_) ?_
    · refine (Cert.MlpBlock.act_apply _ (ix2 p k)).trans (congrArg gelu ?_)
      refine (Cert.MlpBlock.pre_apply dot_S1024x768_S768x1536_S1024x1536_1_0_0_1_n_n rfl _ _ _ _ p k).trans ?_
      refine congr (congrArg HAdd.hAdd (Finset.sum_congr rfl fun j _ => ?_)) ?_
      · refine congr (congrArg HMul.hMul (shapeCast_1ab_ab_apply x0 _ p j)) ?_
        refine (shapeCast_1ab_ab_apply _ _ j k).trans ?_
        refine Cert.MlpBlock.ld_unit_apply x1 _ _ _ (ix3 (0 : Fin 1) j k) (ix3 (0 : Fin 1) j (hi k)) ?_
        intro a
        match a with
        | ⟨0, _⟩ => rfl
        | ⟨1, _⟩ => exact (Nat.zero_add _).symm
        | ⟨2, _⟩ => exact rfl
      · refine (Cert.MlpBlock.row_apply _ _ k).trans ?_
        refine Cert.MlpBlock.ld_unit_apply x2 _ _ _ (ix3 (0 : Fin 1) (0 : Fin 1) k) (ix3 (0 : Fin 1) (0 : Fin 1) (hi k)) ?_
        intro a
        match a with
        | ⟨0, _⟩ => rfl
        | ⟨1, _⟩ => rfl
        | ⟨2, _⟩ => exact rfl
    · refine Cert.MlpBlock.ld_unit_apply x3 _ _ _ (ix3 (0 : Fin 1) k q) (ix3 (0 : Fin 1) (hi k) q) ?_
      intro a
      match a with
      | ⟨0, _⟩ => rfl
      | ⟨1, _⟩ => exact rfl
      | ⟨2, _⟩ => exact (Nat.zero_add _).symm

end Cert.KernelIdeal.KValue

end
-- ==== Proof.KernelArray.lean ====
/-
  The kernel's result array is the expert network `Mlp.out` of its arguments.

  The grid has one point per expert `e` and half `h` of the 2048 tokens. At that point the windows hand the body the 1024
  token rows `1024·h + p` of expert `e`, expert `e`'s two weight matrices and its two bias rows; `x`, `b1` and `b2` reach the
  region through reshapes that only drop or add unit axes. So the block the body leaves (`KernelPiece.block_apply`) is, at
  `(p, q)`, the expert network at expert `e`, token `1024·h + p`, feature `q` — with the bias first and the hidden features
  in two halves, which is the network's value by `Mlp.two_halves`. The sixteen blocks tile the `[8, 2048, 768]` result,
  and the one host operation after the region gives it back its leading unit axis.
-/
import proofs.«114358_g18863496364575_cont_8to1_677_20_alg».proof.Proof.KernelPiece
import Idealize.ShloMosaic.Lib.StableHlo.Run
import Idealize.ShloMosaic.Lib.Pipeline.FrameSuffix

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Idealize.ShloMosaic.StableHlo Cert.Mlp

variable (m : (ℓ : Loc nD τ sig) → Buf (Elt Ideal) ℓ) (ρ : Dev nD → PrngReg)

/-- The five argument arrays as launched. -/
abbrev A0 (c : Dev nD) : FVec Ideal S1x8x2048x768 .f32 := m ((c : Thread nD τ).loc main_arg0)
abbrev A1 (c : Dev nD) : FVec Ideal S8x768x3072 .f32 := m ((c : Thread nD τ).loc main_arg1)
abbrev A2 (c : Dev nD) : FVec Ideal S8x3072 .f32 := m ((c : Thread nD τ).loc main_arg2)
abbrev A3 (c : Dev nD) : FVec Ideal S8x3072x768 .f32 := m ((c : Thread nD τ).loc main_arg3)
abbrev A4 (c : Dev nD) : FVec Ideal S8x768 .f32 := m ((c : Thread nD τ).loc main_arg4)

/-! ## The arrays the region finds -/

theorem V_v0 (c : Dev nD) :
    (V m c main_v0 : S8x2048x768.Idx → EReal) = shapeCast S8x2048x768 (A0 m c) shapeCasts_S1x8x2048x768_S8x2048x768 := by
  show StableHlo.after hostOps0 (fun b => m (c, b)) (Proc.devRef .tc main_v0) = _
  after_results; rfl

theorem V_v1 (c : Dev nD) :
    (V m c main_v1 : S8x1x3072.Idx → EReal) = shapeCast S8x1x3072 (A2 m c) shapeCasts_S8x3072_S8x1x3072 := by
  show StableHlo.after hostOps0 (fun b => m (c, b)) (Proc.devRef .tc main_v1) = _
  after_results; rfl

theorem V_v2 (c : Dev nD) :
    (V m c main_v2 : S8x1x768.Idx → EReal) = shapeCast S8x1x768 (A4 m c) shapeCasts_S8x768_S8x1x768 := by
  show StableHlo.after hostOps0 (fun b => m (c, b)) (Proc.devRef .tc main_v2) = _
  after_results; rfl

/-- An `[a, b]` array cast to `[a, 1, b]` reads, at `(i, u, j)`, the operand at `(i, j)`. -/
theorem middle_unit_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## Where the windows' blocks sit, decided over the sixteen grid points -/

theorem idx5 : ∀ t : Fin cfg0.N, win0_5.index t (0 : Fin 3) ≤ 7 ∧ win0_5.index t (1 : Fin 3) ≤ 1 ∧ win0_5.index t (2 : Fin 3) = 0 :=
  (by decide +kernel : ∀ t : Fin grid0.N, _)

theorem idx0 : ∀ t : Fin cfg0.N, win0_0.index t (0 : Fin 3) = win0_5.index t (0 : Fin 3)
    ∧ win0_0.index t (1 : Fin 3) = win0_5.index t (1 : Fin 3) ∧ win0_0.index t (2 : Fin 3) = 0 :=
  (by decide +kernel : ∀ t : Fin grid0.N, _)

theorem idx1 : ∀ t : Fin cfg0.N, win0_1.index t (0 : Fin 3) = win0_5.index t (0 : Fin 3) ∧ win0_1.index t (1 : Fin 3) = 0
    ∧ win0_1.index t (2 : Fin 3) = 0 :=
  (by decide +kernel : ∀ t : Fin grid0.N, _)

theorem idx2 : ∀ t : Fin cfg0.N, win0_2.index t (0 : Fin 3) = win0_5.index t (0 : Fin 3) ∧ win0_2.index t (1 : Fin 3) = 0
    ∧ win0_2.index t (2 : Fin 3) = 0 :=
  (by decide +kernel : ∀ t : Fin grid0.N, _)

theorem idx3 : ∀ t : Fin cfg0.N, win0_3.index t (0 : Fin 3) = win0_5.index t (0 : Fin 3) ∧ win0_3.index t (1 : Fin 3) = 0
    ∧ win0_3.index t (2 : Fin 3) = 0 :=
  (by decide +kernel : ∀ t : Fin grid0.N, _)

theorem idx4 : ∀ t : Fin cfg0.N, win0_4.index t (0 : Fin 3) = win0_5.index t (0 : Fin 3) ∧ win0_4.index t (1 : Fin 3) = 0
    ∧ win0_4.index t (2 : Fin 3) = 0 :=
  (by decide +kernel : ∀ t : Fin grid0.N, _)

/-- Every (expert, token half) is some point's. -/
theorem idx_onto : ∀ (q0 : Fin 8) (q1 : Fin 2), ∃ t : Fin cfg0.N, win0_5.index t = ![q0.val, q1.val, 0] :=
  (by decide +kernel : ∀ (q0 : Fin 8) (q1 : Fin 2), ∃ t : Fin grid0.N, win0_5.index t = ![q0.val, q1.val, 0])

/-- Point `t`'s expert, and the token its block's row `p` is. -/
def eOf (t : Fin cfg0.N) : Fin 8 := ⟨win0_5.index t (0 : Fin 3), by have := (idx5 t).1; omega⟩
def rowOf (t : Fin cfg0.N) (p : Fin 1024) : Fin 2048 :=
  ⟨win0_5.index t (1 : Fin 3) * 1024 + p.val, by have := (idx5 t).2.1; have := p.isLt; omega⟩

/-- The output block's index `(u, p, q)` is the result array's `(e, 1024·h + p, q)`; the token block of `x` likewise. -/
theorem emb5 (t : Fin cfg0.N) (u : Fin 1) (p : Fin 1024) (q : Fin 768) :
    ((cfg0.win 5).blk t).view.emb (ix3 u p q) = (ix3 (eOf t) (rowOf t p) q : S8x2048x768.Idx) := by
  obtain ⟨e0, e1, e2⟩ := idx5 t
  funext a; apply Fin.ext
  match a with
  | ⟨0, _⟩ => show win0_5.index t (0 : Fin 3) * 1 + 1 * u.val = win0_5.index t (0 : Fin 3); have := u.isLt; omega
  | ⟨1, _⟩ => show win0_5.index t (1 : Fin 3) * 1024 + 1 * p.val = win0_5.index t (1 : Fin 3) * 1024 + p.val; omega
  | ⟨2, _⟩ => show win0_5.index t (2 : Fin 3) * 768 + 1 * q.val = q.val; omega

theorem emb0 (t : Fin cfg0.N) (u : Fin 1) (p : Fin 1024) (j : Fin 768) :
    ((cfg0.win 0).blk t).view.emb (ix3 u p j) = (ix3 (eOf t) (rowOf t p) j : S8x2048x768.Idx) := by
  obtain ⟨e0, e1, e2⟩ := idx0 t
  funext a; apply Fin.ext
  match a with
  | ⟨0, _⟩ => show win0_0.index t (0 : Fin 3) * 1 + 1 * u.val = win0_5.index t (0 : Fin 3); have := u.isLt; omega
  | ⟨1, _⟩ => show win0_0.index t (1 : Fin 3) * 1024 + 1 * p.val = win0_5.index t (1 : Fin 3) * 1024 + p.val; omega
  | ⟨2, _⟩ => show win0_0.index t (2 : Fin 3) * 768 + 1 * j.val = j.val; omega

/-- The weight and bias blocks are expert `e`'s whole slabs. -/
theorem emb1 (t : Fin cfg0.N) (u : Fin 1) (i : Fin 768) (j : Fin 3072) :
    ((cfg0.win 1).blk t).view.emb (ix3 u i j) = (ix3 (eOf t) i j : S8x768x3072.Idx) := by
  obtain ⟨e0, e1, e2⟩ := idx1 t
  funext a; apply Fin.ext
  match a with
  | ⟨0, _⟩ => show win0_1.index t (0 : Fin 3) * 1 + 1 * u.val = win0_5.index t (0 : Fin 3); have := u.isLt; omega
  | ⟨1, _⟩ => show win0_1.index t (1 : Fin 3) * 768 + 1 * i.val = i.val; omega
  | ⟨2, _⟩ => show win0_1.index t (2 : Fin 3) * 3072 + 1 * j.val = j.val; omega

theorem emb2 (t : Fin cfg0.N) (u : Fin 1) (i : Fin 1) (j : Fin 3072) :
    ((cfg0.win 2).blk t).view.emb (ix3 u i j) = (ix3 (eOf t) i j : S8x1x3072.Idx) := by
  obtain ⟨e0, e1, e2⟩ := idx2 t
  funext a; apply Fin.ext
  match a with
  | ⟨0, _⟩ => show win0_2.index t (0 : Fin 3) * 1 + 1 * u.val = win0_5.index t (0 : Fin 3); have := u.isLt; omega
  | ⟨1, _⟩ => show win0_2.index t (1 : Fin 3) * 1 + 1 * i.val = i.val; omega
  | ⟨2, _⟩ => show win0_2.index t (2 : Fin 3) * 3072 + 1 * j.val = j.val; omega

theorem emb3 (t : Fin cfg0.N) (u : Fin 1) (i : Fin 3072) (j : Fin 768) :
    ((cfg0.win 3).blk t).view.emb (ix3 u i j) = (ix3 (eOf t) i j : S8x3072x768.Idx) := by
  obtain ⟨e0, e1, e2⟩ := idx3 t
  funext a; apply Fin.ext
  match a with
  | ⟨0, _⟩ => show win0_3.index t (0 : Fin 3) * 1 + 1 * u.val = win0_5.index t (0 : Fin 3); have := u.isLt; omega
  | ⟨1, _⟩ => show win0_3.index t (1 : Fin 3) * 3072 + 1 * i.val = i.val; omega
  | ⟨2, _⟩ => show win0_3.index t (2 : Fin 3) * 768 + 1 * j.val = j.val; omega

theorem emb4 (t : Fin cfg0.N) (u : Fin 1) (i : Fin 1) (j : Fin 768) :
    ((cfg0.win 4).blk t).view.emb (ix3 u i j) = (ix3 (eOf t) i j : S8x1x768.Idx) := by
  obtain ⟨e0, e1, e2⟩ := idx4 t
  funext a; apply Fin.ext
  match a with
  | ⟨0, _⟩ => show win0_4.index t (0 : Fin 3) * 1 + 1 * u.val = win0_5.index t (0 : Fin 3); have := u.isLt; omega
  | ⟨1, _⟩ => show win0_4.index t (1 : Fin 3) * 1 + 1 * i.val = i.val; omega
  | ⟨2, _⟩ => show win0_4.index t (2 : Fin 3) * 768 + 1 * j.val = j.val; omega

/-! ## The blocks the body is handed, read off the arguments -/

theorem rd0 (c : Dev nD) (t : Fin cfg0.N) (p : Fin 1024) (j : Fin 768) :
    iblk m c 0 t (ix3 (0 : Fin 1) p j) = A0 m c (ix4 (0 : Fin 1) (eOf t) (rowOf t p) j) := by
  show V m c main_v0 (((cfg0.win 0).blk t).view.emb (ix3 (0 : Fin 1) p j)) = _
  rw [emb0, V_v0]
  exact shapeCast_1abc_abc_apply (A0 m c) _ (eOf t) (rowOf t p) j

theorem rd1 (c : Dev nD) (t : Fin cfg0.N) (j : Fin 768) (k : Fin 3072) :
    iblk m c 1 t (ix3 (0 : Fin 1) j k) = A1 m c (ix3 (eOf t) j k) := by
  show V m c main_arg1 (((cfg0.win 1).blk t).view.emb (ix3 (0 : Fin 1) j k)) = _
  rw [emb1, V_main_arg1]

theorem rd2 (c : Dev nD) (t : Fin cfg0.N) (k : Fin 3072) :
    iblk m c 2 t (ix3 (0 : Fin 1) (0 : Fin 1) k) = A2 m c (ix2 (eOf t) k) := by
  show V m c main_v1 (((cfg0.win 2).blk t).view.emb (ix3 (0 : Fin 1) (0 : Fin 1) k)) = _
  rw [emb2, V_v1]
  exact middle_unit_apply (A2 m c) _ (eOf t) (0 : Fin 1) k

theorem rd3 (c : Dev nD) (t : Fin cfg0.N) (k : Fin 3072) (q : Fin 768) :
    iblk m c 3 t (ix3 (0 : Fin 1) k q) = A3 m c (ix3 (eOf t) k q) := by
  show V m c main_arg3 (((cfg0.win 3).blk t).view.emb (ix3 (0 : Fin 1) k q)) = _
  rw [emb3, V_main_arg3]

theorem rd4 (c : Dev nD) (t : Fin cfg0.N) (q : Fin 768) :
    iblk m c 4 t (ix3 (0 : Fin 1) (0 : Fin 1) q) = A4 m c (ix2 (eOf t) q) := by
  show V m c main_v2 (((cfg0.win 4).blk t).view.emb (ix3 (0 : Fin 1) (0 : Fin 1) q)) = _
  rw [emb4, V_v2]
  exact middle_unit_apply (A4 m c) _ (eOf t) (0 : Fin 1) q

/-! ## From the blocks to the array -/

/-- The result of the region: the expert network, as an `[8, 2048, 768]` array. -/
def G (c : Dev nD) : S8x2048x768.Idx → EReal :=
  fun i => outAt (A0 m c) (A1 m c) (A2 m c) (A3 m c) (A4 m c) (i 0) (i 1) (i 2)

/-- What point `t` writes back is block `t` of the expert network of the arguments. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold outsAt0
  rw [block_eq]
  funext y
  obtain ⟨u, p, q, rfl⟩ : ∃ (u : Fin 1) (p : Fin 1024) (q : Fin 768), y = ix3 u p q := ⟨y 0, y 1, y 2, eq_ix3 y⟩
  obtain rfl : u = 0 := Subsingleton.elim _ _
  show block (iblk m c 0 t) (iblk m c 1 t) (iblk m c 2 t) (iblk m c 3 t) (iblk m c 4 t) (ix3 (0 : Fin 1) p q)
    = G m c (((cfg0.win 5).blk t).view.emb (ix3 (0 : Fin 1) p q))
  rw [emb5]
  refine (block_apply (iblk m c 0 t) (iblk m c 1 t) (iblk m c 2 t) (iblk m c 3 t) (iblk m c 4 t) p q).trans ?_
  simp only [rd0 m c t, rd1 m c t, rd2 m c t, rd3 m c t, rd4 m c t]
  exact two_halves (term (A0 m c) (A1 m c) (A2 m c) (A3 m c) (eOf t) (rowOf t p) q) (A4 m c (ix2 (eOf t) q))

/-- An index of the result is in point `t`'s block iff each coordinate is in the block's range on its axis. -/
theorem mem_blk5 (t : Fin cfg0.N) (i : S8x2048x768.Idx) :
    i ∈ ((cfg0.win 5).blk t).view.set ↔ ∀ a : Fin 3, win0_5.index t a * S1x1024x768.size a ≤ (i a).val
      ∧ (i a).val < win0_5.index t a * S1x1024x768.size a + S1x1024x768.size a := by
  show i ∈ ((View.whole main_v3).slice (win0_5.rect t)).set ↔ _
  rw [View.set_slice_whole, Rect.mem_set_unit]
  exact Iff.rfl

/-- The sixteen blocks cover the result: token `r` of expert `e` is in the block of the point `(e, r / 1024)`. -/
theorem cover (i : S8x2048x768.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 768 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 768 ≤ (i 2).val ∧ (i 2).val < win0_5.index t (2 : Fin 3) * 768 + 768; omega

/-- The result array after the region. -/
theorem final (c : Dev nD) : (dats m 0 c).arrAt 5 cfg0.N = G m c :=
  (dats m 0 c).arrAt_eq_of_cover 5 (G m c) (fun t _ => flushed_eq m c t) (cover)

end Cert.KernelIdeal.KValue

end
-- ==== Proof.KernelRun.lean ====
/-
  The kernel's run, read: its result is the expert network `Mlp.out` of its arguments, which end unchanged.

  After the region the one host operation casts the `[8, 2048, 768]` result to `[1, 8, 2048, 768]`; at `(u, e, n, d)` it
  reads the region's result at `(e, n, d)`, the expert network there (`KernelArray.final`).
-/
import proofs.«114358_g18863496364575_cont_8to1_677_20_alg».proof.Proof.KernelArray

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Idealize.ShloMosaic.StableHlo Cert.Mlp

variable (m : (ℓ : Loc nD τ sig) → Buf (Elt Ideal) ℓ) (ρ : Dev nD → PrngReg)

/-- The region's result with its leading unit axis put back is the expert network as a `[1, 8, 2048, 768]` array. -/
theorem out_eq (c : Dev nD) :
    shapeCast S1x8x2048x768 (G m c) shapeCasts_S8x2048x768_S1x8x2048x768
      = out (A0 m c) (A1 m c) (A2 m c) (A3 m c) (A4 m c) := by
  funext i
  obtain ⟨u, e, n, d, rfl⟩ : ∃ (u : Fin 1) (e : Fin 8) (n : Fin 2048) (d : Fin 768), i = ix4 u e n d :=
    ⟨i 0, i 1, i 2, i 3, eq_ix4 i⟩
  exact shapeCast_abc_1abc_apply (G m c) _ u e n d

/-- @main's result after the host operation that follows the region. -/
theorem tail_eq (c : Dev nD) :
    Pipeline.afterTail₀ cfgs (dats m) 0 (V0 m) [hostOps1] c main_v4
      = out (A0 m c) (A1 m c) (A2 m c) (A3 m c) (A4 m c) := by
  refine Eq.trans ?_ (out_eq m c)
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = G m c := (Pipeline.withArrays_arr spec0 launch0.win.arr_inj c _ _ 5).trans (final m c)
  rw [hw]
  rfl

/-- Every weakly fair execution of the idealized kernel ends with @main's result at the expert network of the
    arguments and the arguments unchanged. -/
theorem run : θ_run defs (onTc (τ := τ) (main (F := Ideal))) ⟨m, fun _ => 0, ρ⟩ fun r => ∀ c : Dev nD,
      r.2.mem ((c.tc : Thread nD τ).loc main_v4) = out (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KValue

end
-- ==== Proof.LibRowsDot.lean ====
/-
  A product of a one-member stack of rows with a matrix, read at an index.

  The dimension numbers contract the last axis of a `[1, M, K]` left operand with the first axis of a `[K, N]` right
  operand; the result `[1, M, N]` keeps the left operand's two leading axes and then the right operand's columns (no
  batch axis). At result index `(0, p, q)` and contraction position `k` the left operand is read at `(0, p, k)` and the
  right one at `(k, q)`, so at the exact values the host's `dot_general` there is the sum over `k` of
  `l (0, p, k) · r (k, q)`. A printed record with these six lists equals `dims M K N wf` by `rfl`.
-/
import Idealize.ShloMosaic.Lib.ValueIdx
import Idealize.ShloMosaic.PureOps.Ideal.Laws

noncomputable section

open scoped BigOperators

namespace Cert.RowsDot

open Idealize.ShloMosaic Idealize.ShloMosaic.ValueIdx

/-- The dimension numbers: contract axis 2 of `[1, M, K]` with axis 0 of `[K, N]`. -/
def dims (M K N : ℕ)
    (wf : DotDims.WF ⟨3, ![1, M, K]⟩ ⟨2, ![K, N]⟩ ⟨3, ![1, M, N]⟩ [2] [0] [0, 1] [1] [] []) :
    DotDims ⟨3, ![1, M, K]⟩ ⟨2, ![K, N]⟩ ⟨3, ![1, M, N]⟩ where
  lhsContracting := [2]
  rhsContracting := [0]
  lhsNonContracting := [0, 1]
  rhsNonContracting := [1]
  lhsBatch := []
  rhsBatch := []
  wf := wf

variable (M K N : ℕ) (wf : DotDims.WF ⟨3, ![1, M, K]⟩ ⟨2, ![K, N]⟩ ⟨3, ![1, M, N]⟩ [2] [0] [0, 1] [1] [] [])

/-- One axis is contracted, of extent `K`. -/
theorem contr_rank : (dims M K N wf).contr.rank = 1 := rfl
theorem contr_size : (dims M K N wf).contr.size ⟨0, by rw [contr_rank]; exact Nat.one_pos⟩ = K := rfl

/-- The contraction positions are the numbers below `K`. -/
abbrev pos : (dims M K N wf).contr.Idx ≃ Fin K := contrEquiv1 (dims M K N wf) K (contr_rank M K N wf) (contr_size M K N wf)

/-- On its two leading axes the left operand follows the result's. -/
theorem lhsIdx_lead (j : (⟨3, ![1, M, N]⟩ : Shape).Idx) (k : (dims M K N wf).contr.Idx) :
    ((dims M K N wf).lhsIdx j k 0).val = (j 0).val := by
  unfold DotDims.lhsIdx
  rw [dif_neg (show ¬(0 : Fin (⟨3, ![1, M, K]⟩ : Shape).rank) ∈ (dims M K N wf).lhsBatch from List.not_mem_nil),
    dif_pos (show (0 : Fin (⟨3, ![1, M, K]⟩ : Shape).rank) ∈ (dims M K N wf).lhsNonContracting from List.mem_cons_self)]
  rfl

theorem lhsIdx_row (j : (⟨3, ![1, M, N]⟩ : Shape).Idx) (k : (dims M K N wf).contr.Idx) :
    ((dims M K N wf).lhsIdx j k 1).val = (j 1).val := by
  unfold DotDims.lhsIdx
  rw [dif_neg (show ¬(1 : Fin (⟨3, ![1, M, K]⟩ : Shape).rank) ∈ (dims M K N wf).lhsBatch from List.not_mem_nil),
    dif_pos (show (1 : Fin (⟨3, ![1, M, K]⟩ : Shape).rank) ∈ (dims M K N wf).lhsNonContracting from
      List.mem_cons_of_mem _ (List.mem_singleton.mpr rfl))]
  rfl

/-- On its column axis the right operand follows the result's last axis. -/
theorem rhsIdx_col (j : (⟨3, ![1, M, N]⟩ : Shape).Idx) (k : (dims M K N wf).contr.Idx) :
    ((dims M K N wf).rhsIdx j k 1).val = (j 2).val := by
  unfold DotDims.rhsIdx
  rw [dif_neg (show ¬(1 : Fin (⟨2, ![K, N]⟩ : Shape).rank) ∈ (dims M K N wf).rhsBatch from List.not_mem_nil),
    dif_pos (show (1 : Fin (⟨2, ![K, N]⟩ : Shape).rank) ∈ (dims M K N wf).rhsNonContracting from List.mem_singleton.mpr rfl)]
  rfl

/-- The left operand is read at `(0, p, k)`. -/
theorem lhsIdx_eq (p : Fin M) (q : Fin N) (k : Fin K) :
    (dims M K N wf).lhsIdx (ix3 (0 : Fin 1) p q) ((pos M K N wf).symm k) = ix3 (0 : Fin 1) p k := by
  have hk := contrEquiv1_symm_val (dims M K N wf) K (contr_rank M K N wf) (contr_size M K N wf) k
  funext a
  apply Fin.ext
  match a with
  | ⟨0, _⟩ => exact lhsIdx_lead M K N wf _ _
  | ⟨1, _⟩ => exact lhsIdx_row M K N wf _ _
  | ⟨2, _⟩ => exact ((dims M K N wf).lhsIdx_val_of_single (cl := (2 : Fin 3)) rfl _ _).trans hk

/-- The right operand is read at `(k, q)`. -/
theorem rhsIdx_eq (p : Fin M) (q : Fin N) (k : Fin K) :
    (dims M K N wf).rhsIdx (ix3 (0 : Fin 1) p q) ((pos M K N wf).symm k) = ix2 k q := by
  have hk := contrEquiv1_symm_val (dims M K N wf) K (contr_rank M K N wf) (contr_size M K N wf) k
  funext a
  apply Fin.ext
  match a with
  | ⟨0, _⟩ => exact ((dims M K N wf).rhsIdx_val_of_single (cr := (0 : Fin 2)) rfl _ _).trans hk
  | ⟨1, _⟩ => exact rhsIdx_col M K N wf _ _

variable {M K N}

/-- The host's `dot_general` at `(0, p, q)`: the sum over `k < K` of the operands at `(0, p, k)` and `(k, q)`. -/
theorem dotGeneral_apply {φ₁ φ₂ : FTy} (prec : Option ContractPrecision) (sched : HostSchedule)
    (l : FVec Ideal ⟨3, ![1, M, K]⟩ φ₁) (r : FVec Ideal ⟨2, ![K, N]⟩ φ₂) (p : Fin M) (q : Fin N) :
    FloatOps.dotGeneral (dims M K N wf) prec sched l r (ix3 (0 : Fin 1) p q)
      = ∑ k : Fin K, l (ix3 (0 : Fin 1) p k) * r (ix2 k q) := by
  rw [Ideal.dotGeneral_apply, ← Equiv.sum_comp (pos M K N wf).symm]
  refine Finset.sum_congr rfl fun k _ => ?_
  rw [lhsIdx_eq, rhsIdx_eq]

end Cert.RowsDot

end
-- ==== Proof.LibExpertSlabs.lean ====
/-
  Host-side layout forms of a stack of experts, read at an index.

  A per-expert computation written on the host takes expert `s` out of each stacked argument by a unit-extent slice along
  the expert axis followed by a shape cast that drops that axis, and broadcasts a bias row over the tokens. Read at an
  index, each of these is the stacked argument at expert `s`:
    * the rows of expert `s` out of `[1, E, M, K]` transposed to `[E, 1, M, K]`   — `expert_rows_apply`
    * the matrix of expert `s` out of `[E, A, B]`                                 — `expert_matrix_apply`
    * the bias row of expert `s` out of `[E, N]`, broadcast to `[1, M, N]`        — `expert_bias_apply`
    * a `[1, M, N]` result given a new leading unit axis, `[1, 1, M, N]`           — `unit_front_apply`
-/
import Idealize.ShloMosaic.Lib.ValueLayout
import Idealize.ShloMosaic.Lib.Pipeline.Value

noncomputable section

namespace Cert.ExpertSlabs

open Idealize.ShloMosaic Idealize.ShloMosaic.ValueIdx

variable {α : Type}

/-- A coordinate below `N` is `0` when `N = 1`: the form a broadcast's unit-axis test takes. -/
theorem val_eq_ite {N : ℕ} (q : Fin N) : q.val = if N = 1 then 0 else q.val := by
  split
  · have := q.isLt; omega
  · rfl

/-- Expert `s`'s rows: `[1, E, M, K]` with its two leading axes swapped, cut to expert `s`, the expert axis dropped. -/
theorem expert_rows_apply {E M K : ℕ} (x : (⟨4, ![1, E, M, K]⟩ : Shape).Idx → α) (s : ℕ) (hs : s < E)
    (hT : (⟨4, ![1, E, M, K]⟩ : Shape).Transposes [1, 0, 2, 3] ⟨4, ![E, 1, M, K]⟩)
    (hS : (⟨4, ![E, 1, M, K]⟩ : Shape).Slices ![s, 0, 0, 0] ⟨4, ![1, 1, M, K]⟩)
    (hC : (⟨4, ![1, 1, M, K]⟩ : Shape).ShapeCasts ⟨3, ![1, M, K]⟩) (n : Fin M) (j : Fin K) :
    shapeCast ⟨3, ![1, M, K]⟩ (extractStridedSlice ⟨4, ![1, 1, M, K]⟩ ![s, 0, 0, 0]
      (transpose ⟨4, ![E, 1, M, K]⟩ [1, 0, 2, 3] x hT) hS) hC (ix3 (0 : Fin 1) n j)
      = x (ix4 (0 : Fin 1) (⟨s, hs⟩ : Fin E) n j) := by
  rw [shapeCast_1abc_abc_apply]
  rw [extractStridedSlice_apply ![s, 0, 0, 0] _ hS (ix4 (0 : Fin 1) (0 : Fin 1) n j) (ix4 (⟨s, hs⟩ : Fin E) (0 : Fin 1) n j)
    (fun a => match a with
      | ⟨0, _⟩ => rfl
      | ⟨1, _⟩ => rfl
      | ⟨2, _⟩ => (Nat.zero_add _).symm
      | ⟨3, _⟩ => (Nat.zero_add _).symm)]
  exact transpose_apply [1, 0, 2, 3] x hT (ix4 (⟨s, hs⟩ : Fin E) (0 : Fin 1) n j) (ix4 (0 : Fin 1) (⟨s, hs⟩ : Fin E) n j)
    (fun b => match b with
      | ⟨0, _⟩ => rfl
      | ⟨1, _⟩ => rfl
      | ⟨2, _⟩ => rfl
      | ⟨3, _⟩ => rfl)

/-- Expert `s`'s matrix: `[E, A, B]` cut to expert `s`, the expert axis dropped. -/
theorem expert_matrix_apply {E A B : ℕ} (X : (⟨3, ![E, A, B]⟩ : Shape).Idx → α) (s : ℕ) (hs : s < E)
    (hS : (⟨3, ![E, A, B]⟩ : Shape).Slices ![s, 0, 0] ⟨3, ![1, A, B]⟩)
    (hC : (⟨3, ![1, A, B]⟩ : Shape).ShapeCasts ⟨2, ![A, B]⟩) (i : Fin A) (j : Fin B) :
    shapeCast ⟨2, ![A, B]⟩ (extractStridedSlice ⟨3, ![1, A, B]⟩ ![s, 0, 0] X hS) hC (ix2 i j)
      = X (ix3 (⟨s, hs⟩ : Fin E) i j) := by
  rw [shapeCast_1ab_ab_apply]
  exact extractStridedSlice_apply ![s, 0, 0] X hS (ix3 (0 : Fin 1) i j) (ix3 (⟨s, hs⟩ : Fin E) i j)
    (fun a => match a with
      | ⟨0, _⟩ => rfl
      | ⟨1, _⟩ => (Nat.zero_add _).symm
      | ⟨2, _⟩ => (Nat.zero_add _).symm)

/-- Expert `s`'s bias row, broadcast over the `M` tokens of a `[1, M, N]` array. -/
theorem expert_bias_apply {E M N : ℕ} (B : (⟨2, ![E, N]⟩ : Shape).Idx → α) (s : ℕ) (hs : s < E)
    (hS : (⟨2, ![E, N]⟩ : Shape).Slices ![s, 0] ⟨2, ![1, N]⟩)
    (hC : (⟨2, ![1, N]⟩ : Shape).ShapeCasts ⟨1, ![N]⟩)
    (hB1 : (⟨1, ![N]⟩ : Shape).BroadcastsInDim ⟨3, ![1, 1, N]⟩ ![2])
    (hB2 : (⟨3, ![1, 1, N]⟩ : Shape).BroadcastsInDim ⟨3, ![1, M, N]⟩ ![0, 1, 2]) (p : Fin M) (q : Fin N) :
    broadcastInDim ⟨3, ![1, M, N]⟩ ![0, 1, 2] hB2 (broadcastInDim ⟨3, ![1, 1, N]⟩ ![2] hB1
      (shapeCast ⟨1, ![N]⟩ (extractStridedSlice ⟨2, ![1, N]⟩ ![s, 0] B hS) hC)) (ix3 (0 : Fin 1) p q)
      = B (ix2 (⟨s, hs⟩ : Fin E) q) := by
  refine (broadcastInDim_apply ![0, 1, 2] hB2 _ (ix3 (0 : Fin 1) p q) (ix3 (0 : Fin 1) (0 : Fin 1) q) ?_).trans ?_
  · intro a
    match a with
    | ⟨0, _⟩ => exact (if_pos rfl).symm
    | ⟨1, _⟩ => exact (if_pos rfl).symm
    | ⟨2, _⟩ => exact val_eq_ite q
  refine (broadcastInDim_apply ![2] hB1 _ (ix3 (0 : Fin 1) (0 : Fin 1) q) (ix1 q) ?_).trans ?_
  · intro a
    match a with
    | ⟨0, _⟩ => exact val_eq_ite q
  rw [shapeCast_1a_a_apply]
  exact extractStridedSlice_apply ![s, 0] B hS (ix2 (0 : Fin 1) q) (ix2 (⟨s, hs⟩ : Fin E) q)
    (fun a => match a with
      | ⟨0, _⟩ => rfl
      | ⟨1, _⟩ => (Nat.zero_add _).symm)

/-- A `[1, M, N]` array given a new leading unit axis. -/
theorem unit_front_apply {M N : ℕ} (Y : (⟨3, ![1, M, N]⟩ : Shape).Idx → α)
    (hB : (⟨3, ![1, M, N]⟩ : Shape).BroadcastsInDim ⟨4, ![1, 1, M, N]⟩ ![1, 2, 3]) (u v : Fin 1) (n : Fin M) (d : Fin N) :
    broadcastInDim ⟨4, ![1, 1, M, N]⟩ ![1, 2, 3] hB Y (ix4 u v n d) = Y (ix3 (0 : Fin 1) n d) := by
  refine broadcastInDim_apply ![1, 2, 3] hB Y (ix4 u v n d) (ix3 (0 : Fin 1) n d) ?_
  intro a
  match a with
  | ⟨0, _⟩ => exact (if_pos rfl).symm
  | ⟨1, _⟩ => exact val_eq_ite n
  | ⟨2, _⟩ => exact val_eq_ite d

end Cert.ExpertSlabs

end
-- ==== Proof.HostLayers.lean ====
/-
  One expert's two layers as the host spells them, read at an index.

  A layer is a `dot_general` of a `[1, M, K]` array with expert `s`'s `[K, N]` matrix (cut out of the stacked `[E, K, N]`
  weights) plus expert `s`'s bias row broadcast over the tokens: at `(0, n, q)` it is
  `(∑ k, X (0, n, k) · W (s, k, q)) + B (s, q)` — `layer_apply`. Between the two layers GELU is applied entry by entry, with
  the cube grouped `(h · h) · h` — `act_apply`. The expert's output is then given a leading unit axis for the stacking:
  `expert_out_apply` reads the whole second half of the expert's computation at `(u, v, n, d)` from the hidden layer's
  values.
-/
import Idealize.ShloMosaic.Lib.ValueLayout
import Idealize.ShloMosaic.Lib.Pipeline.Value
import Idealize.ShloMosaic.PureOps.Ideal.Laws
import proofs.«114358_g18863496364575_cont_8to1_677_20_alg».proof.Proof.Spec
import proofs.«114358_g18863496364575_cont_8to1_677_20_alg».proof.Proof.LibRowsDot
import proofs.«114358_g18863496364575_cont_8to1_677_20_alg».proof.Proof.LibExpertSlabs

noncomputable section

open scoped BigOperators

namespace Cert.MlpHost

open Idealize.ShloMosaic Idealize.ShloMosaic.ValueIdx Cert.Mlp

/-- One layer of expert `s` at `(0, n, q)`. -/
theorem layer_apply {E M K N : ℕ} (X : FVec Ideal ⟨3, ![1, M, K]⟩ .f32) (W : FVec Ideal ⟨3, ![E, K, N]⟩ .f32)
    (B : FVec Ideal ⟨2, ![E, N]⟩ .f32) (s : ℕ) (hs : s < E)
    (wf : DotDims.WF ⟨3, ![1, M, K]⟩ ⟨2, ![K, N]⟩ ⟨3, ![1, M, N]⟩ [2] [0] [0, 1] [1] [] [])
    (d : DotDims ⟨3, ![1, M, K]⟩ ⟨2, ![K, N]⟩ ⟨3, ![1, M, N]⟩) (hd : d = Cert.RowsDot.dims M K N wf)
    (hSw : (⟨3, ![E, K, N]⟩ : Shape).Slices ![s, 0, 0] ⟨3, ![1, K, N]⟩)
    (hCw : (⟨3, ![1, K, N]⟩ : Shape).ShapeCasts ⟨2, ![K, N]⟩)
    (hSb : (⟨2, ![E, N]⟩ : Shape).Slices ![s, 0] ⟨2, ![1, N]⟩)
    (hCb : (⟨2, ![1, N]⟩ : Shape).ShapeCasts ⟨1, ![N]⟩)
    (hB1 : (⟨1, ![N]⟩ : Shape).BroadcastsInDim ⟨3, ![1, 1, N]⟩ ![2])
    (hB2 : (⟨3, ![1, 1, N]⟩ : Shape).BroadcastsInDim ⟨3, ![1, M, N]⟩ ![0, 1, 2]) (n : Fin M) (q : Fin N) :
    addf (Host.dotGeneral d none X (shapeCast ⟨2, ![K, N]⟩ (extractStridedSlice ⟨3, ![1, K, N]⟩ ![s, 0, 0] W hSw) hCw))
      (broadcastInDim ⟨3, ![1, M, N]⟩ ![0, 1, 2] hB2 (broadcastInDim ⟨3, ![1, 1, N]⟩ ![2] hB1
        (shapeCast ⟨1, ![N]⟩ (extractStridedSlice ⟨2, ![1, N]⟩ ![s, 0] B hSb) hCb))) (ix3 (0 : Fin 1) n q)
      = (∑ k : Fin K, X (ix3 (0 : Fin 1) n k) * W (ix3 (⟨s, hs⟩ : Fin E) k q)) + B (ix2 (⟨s, hs⟩ : Fin E) q) := by
  subst hd
  show FloatOps.dotGeneral _ none .single X _ (ix3 (0 : Fin 1) n q) + _ = _
  rw [Cert.RowsDot.dotGeneral_apply, Cert.ExpertSlabs.expert_bias_apply B s hs]
  refine congrArg (· + B (ix2 (⟨s, hs⟩ : Fin E) q)) (Finset.sum_congr rfl fun k _ => ?_)
  rw [Cert.ExpertSlabs.expert_matrix_apply W s hs]

/-- GELU entry by entry as the host spells it, the cube grouped to the left. -/
theorem act_apply {S : Shape} (bc : (⟨0, ![]⟩ : Shape).BroadcastsInDim S ![]) (h : FVec Ideal S .f32) (i : S.Idx) :
    mulf h (mulf (broadcastInDim S ![] bc (constant ⟨0, ![]⟩ .f32 0x3F000000#32))
      (addf (broadcastInDim S ![] bc (constant ⟨0, ![]⟩ .f32 0x3F800000#32))
        (Host.tanh (mulf (broadcastInDim S ![] bc (constant ⟨0, ![]⟩ .f32 0x3F4C422A#32))
          (addf h (mulf (broadcastInDim S ![] bc (constant ⟨0, ![]⟩ .f32 0x3D372713#32)) (mulf (mulf h h) h))))))) i
      = gelu (h i) :=
  gelu_cube_left (h i)

/-- The second half of expert `s`: from the hidden layer's values `hid` to the expert's output with its leading unit
    axis, at `(u, v, n, d)`. -/
theorem expert_out_apply {E M H D : ℕ} (Hd : FVec Ideal ⟨3, ![1, M, H]⟩ .f32) (hid : Fin M → Fin H → EReal)
    (hH : ∀ n k, Hd (ix3 (0 : Fin 1) n k) = hid n k)
    (W2 : FVec Ideal ⟨3, ![E, H, D]⟩ .f32) (b2 : FVec Ideal ⟨2, ![E, D]⟩ .f32) (s : ℕ) (hs : s < E)
    (bc : (⟨0, ![]⟩ : Shape).BroadcastsInDim ⟨3, ![1, M, H]⟩ ![])
    (wf : DotDims.WF ⟨3, ![1, M, H]⟩ ⟨2, ![H, D]⟩ ⟨3, ![1, M, D]⟩ [2] [0] [0, 1] [1] [] [])
    (d : DotDims ⟨3, ![1, M, H]⟩ ⟨2, ![H, D]⟩ ⟨3, ![1, M, D]⟩) (hd : d = Cert.RowsDot.dims M H D wf)
    (hSw : (⟨3, ![E, H, D]⟩ : Shape).Slices ![s, 0, 0] ⟨3, ![1, H, D]⟩)
    (hCw : (⟨3, ![1, H, D]⟩ : Shape).ShapeCasts ⟨2, ![H, D]⟩)
    (hSb : (⟨2, ![E, D]⟩ : Shape).Slices ![s, 0] ⟨2, ![1, D]⟩)
    (hCb : (⟨2, ![1, D]⟩ : Shape).ShapeCasts ⟨1, ![D]⟩)
    (hB1 : (⟨1, ![D]⟩ : Shape).BroadcastsInDim ⟨3, ![1, 1, D]⟩ ![2])
    (hB2 : (⟨3, ![1, 1, D]⟩ : Shape).BroadcastsInDim ⟨3, ![1, M, D]⟩ ![0, 1, 2])
    (hP : (⟨3, ![1, M, D]⟩ : Shape).BroadcastsInDim ⟨4, ![1, 1, M, D]⟩ ![1, 2, 3])
    (u v : Fin 1) (n : Fin M) (dd : Fin D) :
    broadcastInDim ⟨4, ![1, 1, M, D]⟩ ![1, 2, 3] hP
      (addf (Host.dotGeneral d none
          (mulf Hd (mulf (broadcastInDim ⟨3, ![1, M, H]⟩ ![] bc (constant ⟨0, ![]⟩ .f32 0x3F000000#32))
            (addf (broadcastInDim ⟨3, ![1, M, H]⟩ ![] bc (constant ⟨0, ![]⟩ .f32 0x3F800000#32))
              (Host.tanh (mulf (broadcastInDim ⟨3, ![1, M, H]⟩ ![] bc (constant ⟨0, ![]⟩ .f32 0x3F4C422A#32))
                (addf Hd (mulf (broadcastInDim ⟨3, ![1, M, H]⟩ ![] bc (constant ⟨0, ![]⟩ .f32 0x3D372713#32))
                  (mulf (mulf Hd Hd) Hd))))))))
          (shapeCast ⟨2, ![H, D]⟩ (extractStridedSlice ⟨3, ![1, H, D]⟩ ![s, 0, 0] W2 hSw) hCw))
        (broadcastInDim ⟨3, ![1, M, D]⟩ ![0, 1, 2] hB2 (broadcastInDim ⟨3, ![1, 1, D]⟩ ![2] hB1
          (shapeCast ⟨1, ![D]⟩ (extractStridedSlice ⟨2, ![1, D]⟩ ![s, 0] b2 hSb) hCb))))
      (ix4 u v n dd)
      = (∑ k : Fin H, gelu (hid n k) * W2 (ix3 (⟨s, hs⟩ : Fin E) k dd)) + b2 (ix2 (⟨s, hs⟩ : Fin E) dd) := by
  rw [Cert.ExpertSlabs.unit_front_apply, layer_apply _ W2 b2 s hs wf d hd]
  refine congrArg (· + b2 (ix2 (⟨s, hs⟩ : Fin E) dd)) (Finset.sum_congr rfl fun k _ => ?_)
  rw [act_apply, hH]

end Cert.MlpHost

end
-- ==== Proof.LibStack8.lean ====
/-
  Eight arrays stacked along a new leading axis, read at an index.

  A concatenate along axis 0 of eight `[1, 1, M, N]` pieces into `[8, 1, M, N]` reads, at `(e, u, n, d)`, piece `e` at
  `(0, u, n, d)`: every piece has extent one along the axis, so the axis coordinate names the piece.
-/
import Idealize.ShloMosaic.Lib.ValueIdx
import Idealize.ShloMosaic.Lib.Pipeline.Value

noncomputable section

namespace Cert.Stack8

open Idealize.ShloMosaic Idealize.ShloMosaic.ValueIdx

variable {α : Type}

/-- Piece `e` of eight. -/
def pick {β : Type} (p0 p1 p2 p3 p4 p5 p6 p7 : β) : Fin 8 → β
  | ⟨0, _⟩ => p0
  | ⟨1, _⟩ => p1
  | ⟨2, _⟩ => p2
  | ⟨3, _⟩ => p3
  | ⟨4, _⟩ => p4
  | ⟨5, _⟩ => p5
  | ⟨6, _⟩ => p6
  | ⟨7, _⟩ => p7
  | ⟨_ + 8, h⟩ => absurd h (by omega)

section
variable {β : Type} (p0 p1 p2 p3 p4 p5 p6 p7 : β)
theorem pick_0 (h : 0 < 8) : pick p0 p1 p2 p3 p4 p5 p6 p7 ⟨0, h⟩ = p0 := rfl
theorem pick_1 (h : 1 < 8) : pick p0 p1 p2 p3 p4 p5 p6 p7 ⟨1, h⟩ = p1 := rfl
theorem pick_2 (h : 2 < 8) : pick p0 p1 p2 p3 p4 p5 p6 p7 ⟨2, h⟩ = p2 := rfl
theorem pick_3 (h : 3 < 8) : pick p0 p1 p2 p3 p4 p5 p6 p7 ⟨3, h⟩ = p3 := rfl
theorem pick_4 (h : 4 < 8) : pick p0 p1 p2 p3 p4 p5 p6 p7 ⟨4, h⟩ = p4 := rfl
theorem pick_5 (h : 5 < 8) : pick p0 p1 p2 p3 p4 p5 p6 p7 ⟨5, h⟩ = p5 := rfl
theorem pick_6 (h : 6 < 8) : pick p0 p1 p2 p3 p4 p5 p6 p7 ⟨6, h⟩ = p6 := rfl
theorem pick_7 (h : 7 < 8) : pick p0 p1 p2 p3 p4 p5 p6 p7 ⟨7, h⟩ = p7 := rfl
end

theorem stack8_apply {M N : ℕ} (p0 p1 p2 p3 p4 p5 p6 p7 : (⟨4, ![1, 1, M, N]⟩ : Shape).Idx → α)
    (h : Shape.Concatenates (([⟨⟨4, ![1, 1, M, N]⟩, p0⟩, ⟨⟨4, ![1, 1, M, N]⟩, p1⟩, ⟨⟨4, ![1, 1, M, N]⟩, p2⟩, ⟨⟨4, ![1, 1, M, N]⟩, p3⟩,
      ⟨⟨4, ![1, 1, M, N]⟩, p4⟩, ⟨⟨4, ![1, 1, M, N]⟩, p5⟩, ⟨⟨4, ![1, 1, M, N]⟩, p6⟩, ⟨⟨4, ![1, 1, M, N]⟩, p7⟩] :
        List ((s : Shape) × (s.Idx → α))).map (·.1)) ⟨4, ![8, 1, M, N]⟩ 0)
    (e : Fin 8) (u : Fin 1) (n : Fin M) (d : Fin N) :
    concatenate ⟨4, ![8, 1, M, N]⟩ 0 [⟨⟨4, ![1, 1, M, N]⟩, p0⟩, ⟨⟨4, ![1, 1, M, N]⟩, p1⟩, ⟨⟨4, ![1, 1, M, N]⟩, p2⟩,
      ⟨⟨4, ![1, 1, M, N]⟩, p3⟩, ⟨⟨4, ![1, 1, M, N]⟩, p4⟩, ⟨⟨4, ![1, 1, M, N]⟩, p5⟩, ⟨⟨4, ![1, 1, M, N]⟩, p6⟩,
      ⟨⟨4, ![1, 1, M, N]⟩, p7⟩] h (ix4 e u n d)
      = pick p0 p1 p2 p3 p4 p5 p6 p7 e (ix4 (0 : Fin 1) u n d) := by
  refine concatenate_ofFn_unit_apply (t := ⟨4, ![8, 1, M, N]⟩) (s₁ := ⟨4, ![1, 1, M, N]⟩) 0
    (pick p0 p1 p2 p3 p4 p5 p6 p7) h rfl rfl (ix4 e u n d) e rfl (ix4 (0 : Fin 1) u n d) ?_
  intro b hb
  match b with
  | ⟨0, _⟩ => exact absurd rfl hb
  | ⟨1, _⟩ => rfl
  | ⟨2, _⟩ => rfl
  | ⟨3, _⟩ => rfl

end Cert.Stack8

end
-- ==== Proof.RefValue.lean ====
/-
  The reference's result is the expert network `Mlp.out` of its arguments.

  The reference swaps the two leading axes of `x`, and for each expert `s = 0 … 7` cuts the expert's rows, matrices and
  bias rows out of the stacked arguments, applies the two layers with GELU between them, and gives the `[1, 2048, 768]`
  result a leading unit axis; the eight results are stacked along that axis and the two leading axes swapped back. Read at
  `(u, e, n, d)`, the swap sends the index to `(e, u, n, d)` of the stack, the stack to piece `e` at `(0, u, n, d)`, and
  piece `e` is expert `e`'s output at token `n`, feature `d` (`HostLayers`), whose hidden layer reads the arguments at
  expert `e` (`hidden_apply`).
-/
import proofs.«114358_g18863496364575_cont_8to1_677_20_alg».proof.Proof.Gen.ReferenceIdeal.Run
import proofs.«114358_g18863496364575_cont_8to1_677_20_alg».proof.Proof.HostLayers
import proofs.«114358_g18863496364575_cont_8to1_677_20_alg».proof.Proof.LibStack8

noncomputable section

open scoped BigOperators

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.ShloMosaic.StableHlo Cert.Mlp

variable (V0 : Valuation τ sig (Elt Ideal))

/-- The five argument arrays as the run finds them. -/
abbrev X : FVec Ideal S1x8x2048x768 .f32 := V0 (Proc.devRef .tc main_arg0)
abbrev W1 : FVec Ideal S8x768x3072 .f32 := V0 (Proc.devRef .tc main_arg1)
abbrev B1 : FVec Ideal S8x3072 .f32 := V0 (Proc.devRef .tc main_arg2)
abbrev W2 : FVec Ideal S8x3072x768 .f32 := V0 (Proc.devRef .tc main_arg3)
abbrev B2 : FVec Ideal S8x768 .f32 := V0 (Proc.devRef .tc main_arg4)
/-- `x` with its two leading axes swapped, as the run names it. -/
abbrev Xt : FVec Ideal S8x1x2048x768 .f32 := res_main_v0 V0

/-- Expert `s`'s hidden layer, as the reference's term for it, at token `n` and hidden feature `k`. -/
theorem hidden_apply (s : ℕ) (hs : s < 8)
    (hSx : S8x1x2048x768.Slices ![s, 0, 0, 0] S1x1x2048x768) (hSw : S8x768x3072.Slices ![s, 0, 0] S1x768x3072)
    (hSb : S8x3072.Slices ![s, 0] S1x3072) (n : Fin 2048) (k : Fin 3072) :
    (addf (Host.dotGeneral dot_S1x2048x768_S768x3072_S1x2048x3072_2_0_01_1_n_n none
        (shapeCast S1x2048x768 (extractStridedSlice S1x1x2048x768 ![s, 0, 0, 0] (Xt V0) hSx) shapeCasts_S1x1x2048x768_S1x2048x768)
        (shapeCast S768x3072 (extractStridedSlice S1x768x3072 ![s, 0, 0] (W1 V0) hSw) shapeCasts_S1x768x3072_S768x3072))
      (broadcastInDim S1x2048x3072 ![0, 1, 2] bcast_S1x1x3072_S1x2048x3072_0_1_2 (broadcastInDim S1x1x3072 ![2] bcast_S3072_S1x1x3072_2
        (shapeCast S3072 (extractStridedSlice S1x3072 ![s, 0] (B1 V0) hSb) shapeCasts_S1x3072_S3072)))
      : FVec Ideal S1x2048x3072 .f32) (ix3 (0 : Fin 1) n k)
      = Cert.Mlp.hidden (X V0) (W1 V0) (B1 V0) (⟨s, hs⟩ : Fin 8) n k := by
  unfold Cert.Mlp.hidden
  refine (Cert.MlpHost.layer_apply _ (W1 V0) (B1 V0) s hs dot_S1x2048x768_S768x3072_S1x2048x3072_2_0_01_1_n_n_wf _ rfl
    hSw _ hSb _ _ _ n k).trans ?_
  refine congrArg (· + B1 V0 (ix2 (⟨s, hs⟩ : Fin 8) k)) (Finset.sum_congr rfl fun j _ => ?_)
  exact congrArg (· * W1 V0 (ix3 (⟨s, hs⟩ : Fin 8) j k))
    (Cert.ExpertSlabs.expert_rows_apply (X V0) s hs transposes_S1x8x2048x768_S8x1x2048x768_1_0_2_3 hSx
      shapeCasts_S1x1x2048x768_S1x2048x768 n j)

/-- Expert `s`'s output with its leading unit axis, as the reference's term for it over the hidden layer `Hd`. -/
theorem expert_apply (Hd : FVec Ideal S1x2048x3072 .f32) (s : ℕ) (hs : s < 8)
    (hH : ∀ n k, Hd (ix3 (0 : Fin 1) n k) = Cert.Mlp.hidden (X V0) (W1 V0) (B1 V0) (⟨s, hs⟩ : Fin 8) n k)
    (hSw : S8x3072x768.Slices ![s, 0, 0] S1x3072x768) (hSb : S8x768.Slices ![s, 0] S1x768)
    (u v : Fin 1) (n : Fin 2048) (d : Fin 768) :
    (broadcastInDim S1x1x2048x768 ![1, 2, 3] bcast_S1x2048x768_S1x1x2048x768_1_2_3
      (addf (Host.dotGeneral dot_S1x2048x3072_S3072x768_S1x2048x768_2_0_01_1_n_n none
          (mulf Hd (mulf (broadcastInDim S1x2048x3072 ![] bcast_S_S1x2048x3072 (constant S_ .f32 0x3F000000#32))
            (addf (broadcastInDim S1x2048x3072 ![] bcast_S_S1x2048x3072 (constant S_ .f32 0x3F800000#32))
              (Host.tanh (mulf (broadcastInDim S1x2048x3072 ![] bcast_S_S1x2048x3072 (constant S_ .f32 0x3F4C422A#32))
                (addf Hd (mulf (broadcastInDim S1x2048x3072 ![] bcast_S_S1x2048x3072 (constant S_ .f32 0x3D372713#32))
                  (mulf (mulf Hd Hd) Hd))))))))
          (shapeCast S3072x768 (extractStridedSlice S1x3072x768 ![s, 0, 0] (W2 V0) hSw) shapeCasts_S1x3072x768_S3072x768))
        (broadcastInDim S1x2048x768 ![0, 1, 2] bcast_S1x1x768_S1x2048x768_0_1_2 (broadcastInDim S1x1x768 ![2] bcast_S768_S1x1x768_2
          (shapeCast S768 (extractStridedSlice S1x768 ![s, 0] (B2 V0) hSb) shapeCasts_S1x768_S768))))
      : FVec Ideal S1x1x2048x768 .f32) (ix4 u v n d)
      = outAt (X V0) (W1 V0) (B1 V0) (W2 V0) (B2 V0) (⟨s, hs⟩ : Fin 8) n d := by
  unfold Cert.Mlp.outAt Cert.Mlp.term
  exact Cert.MlpHost.expert_out_apply Hd (Cert.Mlp.hidden (X V0) (W1 V0) (B1 V0) (⟨s, hs⟩ : Fin 8)) hH (W2 V0) (B2 V0) s hs
    bcast_S_S1x2048x3072 dot_S1x2048x3072_S3072x768_S1x2048x768_2_0_01_1_n_n_wf _ rfl hSw _ hSb _ _ _ _ u v n d

/-- The reference's result array is the expert network of its arguments. -/
theorem result_eq :
    transpose S1x8x2048x768 [1, 0, 2, 3] (res_main_v257 V0) transposes_S8x1x2048x768_S1x8x2048x768_1_0_2_3
      = out (X V0) (W1 V0) (B1 V0) (W2 V0) (B2 V0) := by
  funext i
  obtain ⟨u, e, n, d, rfl⟩ : ∃ (u : Fin 1) (e : Fin 8) (n : Fin 2048) (d : Fin 768), i = ix4 u e n d :=
    ⟨i 0, i 1, i 2, i 3, eq_ix4 i⟩
  refine (transpose_apply [1, 0, 2, 3] _ _ (ix4 u e n d) (ix4 e u n d) ?_).trans ?_
  · intro b
    match b with
    | ⟨0, _⟩ => rfl
    | ⟨1, _⟩ => rfl
    | ⟨2, _⟩ => rfl
    | ⟨3, _⟩ => rfl
  unfold res_main_v257
  refine (Cert.Stack8.stack8_apply _ _ _ _ _ _ _ _ _ e u n d).trans ?_
  show _ = outAt (X V0) (W1 V0) (B1 V0) (W2 V0) (B2 V0) e n d
  match e with
  | ⟨0, h⟩ =>
    rw [Cert.Stack8.pick_0]
    exact expert_apply V0 (res_main_v10 V0) 0 h (hidden_apply V0 0 h _ _ _) _ _ (0 : Fin 1) u n d
  | ⟨1, h⟩ =>
    rw [Cert.Stack8.pick_1]
    exact expert_apply V0 (res_main_v41 V0) 1 h (hidden_apply V0 1 h _ _ _) _ _ (0 : Fin 1) u n d
  | ⟨2, h⟩ =>
    rw [Cert.Stack8.pick_2]
    exact expert_apply V0 (res_main_v72 V0) 2 h (hidden_apply V0 2 h _ _ _) _ _ (0 : Fin 1) u n d
  | ⟨3, h⟩ =>
    rw [Cert.Stack8.pick_3]
    exact expert_apply V0 (res_main_v103 V0) 3 h (hidden_apply V0 3 h _ _ _) _ _ (0 : Fin 1) u n d
  | ⟨4, h⟩ =>
    rw [Cert.Stack8.pick_4]
    exact expert_apply V0 (res_main_v134 V0) 4 h (hidden_apply V0 4 h _ _ _) _ _ (0 : Fin 1) u n d
  | ⟨5, h⟩ =>
    rw [Cert.Stack8.pick_5]
    exact expert_apply V0 (res_main_v165 V0) 5 h (hidden_apply V0 5 h _ _ _) _ _ (0 : Fin 1) u n d
  | ⟨6, h⟩ =>
    rw [Cert.Stack8.pick_6]
    exact expert_apply V0 (res_main_v196 V0) 6 h (hidden_apply V0 6 h _ _ _) _ _ (0 : Fin 1) u n d
  | ⟨7, h⟩ =>
    rw [Cert.Stack8.pick_7]
    exact expert_apply V0 (res_main_v227 V0) 7 h (hidden_apply V0 7 h _ _ _) _ _ (0 : Fin 1) u n d
  | ⟨_ + 8, h⟩ => exact absurd h (by omega)

end Cert.ReferenceIdeal.RefValue

end
-- ==== Proof.lean ====
/-
  A fused per-expert feed-forward kernel against its jnp reference, over the extended reals.

  Both programs compute, for each of 8 experts `e`, each of 2048 tokens `n` and each of 768 output features `d`,
    out[0, e, n, d] = (∑ k < 3072, gelu ((∑ j < 768, x[0, e, n, j] · W1[e, j, k]) + b1[e, k]) · W2[e, k, d]) + b2[e, d]
  with the tanh form of GELU and the same four float literals (`Spec.lean`: `Mlp.out`).

  The kernel visits the experts and the two halves of the tokens on a grid; at a point it fills the output block with the
  bias `b2`, and adds the hidden features' contributions in two halves of 1536 (`KernelPiece.lean`); its sixteen blocks tile
  the result (`KernelArray.lean`, `KernelRun.lean`). The reference handles the experts one after the other, each with one sum
  over all 3072 hidden features and the bias added last, and stacks the eight results (`RefValue.lean`). The two arrangements
  agree because addition of extended reals is commutative and associative (`Mlp.two_halves`) and so is their
  multiplication (the cube inside GELU is grouped differently); no entry needs to be finite, so the precondition is not
  used. The ideal pass rewrote nothing, so `preserves` is `True`. The two kernels' frames are the generated frame
  certificates; the reference's frame is its generated run with the result dropped.
-/
import proofs.«114358_g18863496364575_cont_8to1_677_20_alg».proof.Defs
import proofs.«114358_g18863496364575_cont_8to1_677_20_alg».proof.Proof.Gen.Kernel
import proofs.«114358_g18863496364575_cont_8to1_677_20_alg».proof.Proof.Gen.Kernel.Skeleton
import proofs.«114358_g18863496364575_cont_8to1_677_20_alg».proof.Proof.Gen.Kernel.Launch
import proofs.«114358_g18863496364575_cont_8to1_677_20_alg».proof.Proof.Gen.Kernel.Points
import proofs.«114358_g18863496364575_cont_8to1_677_20_alg».proof.Proof.Gen.Kernel.Frame
import proofs.«114358_g18863496364575_cont_8to1_677_20_alg».proof.Proof.Gen.KernelIdeal
import proofs.«114358_g18863496364575_cont_8to1_677_20_alg».proof.Proof.Gen.KernelIdeal.Skeleton
import proofs.«114358_g18863496364575_cont_8to1_677_20_alg».proof.Proof.Gen.KernelIdeal.Launch
import proofs.«114358_g18863496364575_cont_8to1_677_20_alg».proof.Proof.Gen.KernelIdeal.Points
import proofs.«114358_g18863496364575_cont_8to1_677_20_alg».proof.Proof.Gen.KernelIdeal.Frame
import proofs.«114358_g18863496364575_cont_8to1_677_20_alg».proof.Proof.Gen.ReferenceIdeal
import proofs.«114358_g18863496364575_cont_8to1_677_20_alg».proof.Proof.Gen.ReferenceIdeal.Run
import proofs.«114358_g18863496364575_cont_8to1_677_20_alg».proof.Proof.Gen.Pre_finite_inputs
import proofs.«114358_g18863496364575_cont_8to1_677_20_alg».proof.Proof.KernelRun
import proofs.«114358_g18863496364575_cont_8to1_677_20_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments both programs end with the expert network of those arguments. -/
theorem algebraic : Cert.algebraic_KernelIdeal_ReferenceIdeal := by
  intro m ρ m' ρ' _ hagree
  refine ⟨fun c => Cert.Mlp.out (Cert.KernelIdeal.KValue.A0 m c) (Cert.KernelIdeal.KValue.A1 m c) (Cert.KernelIdeal.KValue.A2 m c)
    (Cert.KernelIdeal.KValue.A3 m c) (Cert.KernelIdeal.KValue.A4 m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  show Cert.Mlp.out (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
